-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192x64 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_cst_2 : FVec F S_ .f32 := constant S_ .f32 0x00000000#32
  let main_v9 : FVec F S8192 .f32 := (fun x v => Host.reduceAdd x v reducesTo_S8192x8192_S8192_d1 h_S_) main_arg0 main_cst_2
  let main_cst_3 : FVec F S_ .f32 := constant S_ .f32 0x00000000#32
  let main_v10 : FVec F S8192 .f32 := broadcastInDim S8192 ![] bcast_S_S8192 main_cst_3
  let main_v11 : IVec S8192 1 := cmpf .ogt main_v9 main_v10
  let main_c_4 : IVec S_ 1 := constantI S_ 1 1#1
  let main_v12 : IVec S_ 1 := (fun x v => Host.reduce IntOp.andi x v reducesTo_S8192_S_d0 h_S_) main_v11 main_c_4
  let main_v13 : IVec S_ 1 := andi main_v8 main_v12
  main_v13
-- ==== Kernel.lean ====
abbrev S8192x8192 : Shape := ⟨2, ![8192, 8192]⟩
abbrev S8192x64 : Shape := ⟨2, ![8192, 64]⟩
abbrev S8192 : Shape := ⟨1, ![8192]⟩
abbrev S512x8192 : Shape := ⟨2, ![512, 8192]⟩
abbrev S512 : Shape := ⟨1, ![512]⟩
abbrev S8192x1 : Shape := ⟨2, ![8192, 1]⟩
abbrev S8x1x1 : Shape := ⟨3, ![8, 1, 1]⟩
abbrev S1024x1024 : Shape := ⟨2, ![1024, 1024]⟩
abbrev S1024x64 : Shape := ⟨2, ![1024, 64]⟩
abbrev S1x1x1 : Shape := ⟨3, ![1, 1, 1]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S8192, .f32⟩
  | .hbm, ⟨3, _⟩ => ⟨S8192, .f32⟩
  | .hbm, ⟨4, _⟩ => ⟨S8192x1, .f32⟩
  | .hbm, ⟨5, _⟩ => ⟨S8192x64, .f32⟩
  | .hbm, ⟨6, _⟩ => ⟨S8192x64, .f32⟩
  | .hbm, ⟨7, _⟩ => ⟨S8x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512, .f32⟩
  | .local _ .vmem, ⟨3, _⟩ => ⟨S512, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1x1x1, .f32⟩
  | .local _ .vmem, ⟨11, _⟩ => ⟨S1x1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  inb_S512_S512_0 : ∀ a, (![0] : Fin 1 → Nat) a + S512.size a ≤ S512.size a
  h_S512 : 0 < S512.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  inb_S1x1x1_S1x1x1_0_0_0 : ∀ a, (![0, 0, 0] : Fin 3 → Nat) a + S1x1x1.size a ≤ S1x1x1.size a
  h_S1x1x1 : 0 < S1x1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  bitsLt_bf16_f32 : FTy.bits .bf16 < FTy.bits .f32
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reduces_S1024x1_S1 : S1024x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S8x1x1_S_d0_1_2 : S8x1x1.ReducesTo [0, 1, 2] S_
  h_S_ : 0 < S_.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S8x1x1.size a
  hwx1_3 : ∀ i : grid1.Coords, EltTy.bits .f32 = 32 ∨ (Rect.block (s := S8x1x1) S1x1x1.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S64x8192 : Shape := ⟨2, ![64, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  reducesTo_S8192x64_S8192_d1 : S8192x64.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KbRegion0.lean ====
/-
  The first kernel region: the degree vector.  The grid has 16 points; point t reads rows 512·t … 512·t + 511 of the
  weight matrix (a 512 × 8192 block) and writes their 512 row sums to entries 512·t … 512·t + 511 of the degree
  vector.  Stated at a parameter `V`, the buffers' contents when the region is entered: a block of the matrix at a
  point, what the body leaves in the output's staging buffer (the row sums of that block), the body's triple, and the
  pipeline's proof data with its obligation at every point.
-/
import proofs.«103079_j4286377361973_2_alg».proof.Proof.Gen.Kernel.Launch
import proofs.«103079_j4286377361973_2_alg».proof.Proof.Gen.Kernel.Skeleton
import proofs.«103079_j4286377361973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix block is in the input's staging buffer at every point, for any proof data on the entry contents whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 8192 block, and the whole 512-entry output block. -/
abbrev rIn0 : Rect S512x8192 := Rect.unit (s := S512x8192) ![0, 0] S512x8192.size inb_S512x8192_S512x8192_0_0
abbrev rOut0 : Rect S512 := Rect.unit (s := S512) ![0] S512.size inb_S512_S512_0

/-- What the body leaves in the output's staging buffer: the row sums of the block it read. -/
def out0_1 (x0 : Vec F S512x8192 .f32) : Vec F S512 .f32 :=
  View.canon [⟨rOut0, k0_pay1 (View.ld x0 rIn0)⟩]

/-- The one store covers the output block. -/
theorem cover0_1 (p0 : Vec F S512 .f32) (y : S512.Idx) :
    ∃ pc ∈ ([⟨rOut0, p0⟩] : List (View.Piece (Elt F) S512 .f32)), y ∈ pc.1.set :=
  View.cover_of_tiled [⟨rOut0, p0⟩] S512.size (by rfl) y

set_option maxHeartbeats 1000000 in
/-- The body on whole staging buffers, the input's at the block `x0` and the output's at anything, runs to the end
    leaving the input's as it was and the output's at the row sums of `x0`. -/
theorem sound_kernel0 (c : Dev nD) (E : Set ℕ) (i : grid0.Coords) (arg1 : Memref sig .tc .vmem S512x8192 .f32) (harg1 : arg1.IsWhole) (arg2 : Memref sig .tc .vmem S512 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body at point
    `t` the input's buffer at its block and the output's at that block's row sums; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frame

end
-- ==== Proof.KbRegion1.lean ====
/-
  The second kernel region: the weighted clamped squared distances, summed per row tile.  The grid is 8 × 8; point
  t = 8·I + J reads the 1024 × 1024 block (I, J) of the weight matrix, rows 1024·I … of the scaled embedding (the
  "i" rows) and rows 1024·J … of the same array (the "j" rows), and adds the block's weighted sum to a one-entry
  accumulator, which it first zeroes when J = 0; the accumulator is written back to entry I of the result after the
  point with J = 7.  The two row windows read ONE array, so each holds half of it.
  Stated at a parameter `V`, the buffers' contents when the region is entered.
-/
import proofs.«103079_j4286377361973_2_alg».proof.Proof.Gen.Kernel.Launch
import proofs.«103079_j4286377361973_2_alg».proof.Proof.Gen.Kernel.Skeleton
import proofs.«103079_j4286377361973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block is in its staging buffer at every point, fetched there or not (the "i" rows are fetched only
    when J = 0: in between their block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "J = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 8·I. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the accumulator window, through which its contents are stated. -/
abbrev VO1_3 : View sig .tc .vmem S1x1x1 .f32 := (Memref.whole cc1_stg3_0 : Memref sig .tc .vmem S1x1x1 .f32).view
/-- Each window's current staging memref at point `t`, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)

set_option maxHeartbeats 4000000 in
/-- The body when J = 0: on whole staging buffers, the three inputs' at their blocks and the accumulator's at
    anything, it runs to the end leaving the inputs' as they were and the accumulator's with the stores it made
    (the zero, then the block's sum added to it), listed as pieces, last first. -/
noncomputable def kernelRun1_A (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 : Vec F S1024x64 .f32) (x2 : Vec F S1024x64 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__loss_kernel i arg2 harg2 arg3 harg3 arg4 harg4 arg5 harg5) K } := by
  refine ⟨?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The body when J ≠ 0: the accumulator's buffer at its running contents `xo3`; it leaves the inputs' as they were
    and the accumulator's with the one store it made (the block's sum added to `xo3`). -/
noncomputable def kernelRun1_B (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 : Vec F S1024x64 .f32) (x2 : Vec F S1024x64 .f32) (xo3 : Vec F S1x1x1 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__loss_kernel i arg2 harg2 arg3 harg3 arg4 harg4 arg5 harg5) K } := by
  refine ⟨?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end

end Cert.Kernel.Frame

end
-- ==== Proof.KbBody1.lean ====
/-
  The second kernel region, continued: what each case of the body leaves in the accumulator's staging buffer, the
  accumulator after every point by recursion on the point (at a point 8·I the zero plus that block's sum; at any other
  point the previous point's contents plus the block's sum), the pipeline's proof data — the two row windows each at
  half of their common array — and the body obligation at every point.
-/
import proofs.«103079_j4286377361973_2_alg».proof.Proof.KbRegion1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The stores of the case J = 0 cover the one-entry block. -/
theorem cover1_A_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 x2 : Vec F S1024x64 .f32) (y : S1x1x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1x1.size (by sl_kernel_rfl) y

/-- What the case J = 0 leaves in the accumulator's buffer. -/
def out1_A_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 x2 : Vec F S1024x64 .f32) : Vec F S1x1x1 .f32 :=
  VO1_3.read (Elt F) (VO1_3.writes (Elt F) VO1_3.junk (kernelRun1_A c i arg2 harg2 arg3 harg3 arg4 harg4 arg5 harg5 hc0 x0 x1 x2).1)

/-- The store of the case J ≠ 0 covers the one-entry block. -/
theorem cover1_B_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 x2 : Vec F S1024x64 .f32) (xo3 : Vec F S1x1x1 .f32) (y : S1x1x1.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1x1.size (by sl_kernel_rfl) y

/-- What the case J ≠ 0 leaves in the accumulator's buffer, from its running contents `xo3`. -/
def out1_B_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 x2 : Vec F S1024x64 .f32) (xo3 : Vec F S1x1x1 .f32) : Vec F S1x1x1 .f32 :=
  VO1_3.read (Elt F) (VO1_3.writes (Elt F) VO1_3.junk (kernelRun1_B c i arg2 harg2 arg3 harg3 arg4 harg4 arg5 harg5 hc0 x0 x1 x2 xo3).1)

/-- THE ACCUMULATION: the accumulator's staging buffer after the body at position `n`. -/
def outsAt1 (c : Dev nD) : (n : ℕ) → n < cfg1.N → Vec F S1x1x1 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point
    `t` each input's buffer at its block and the accumulator's at `outsAt1`; nothing owed; the two row windows at the
    two halves of their common array, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point with J ≠ 0 the accumulator's buffer holds what the body left at the point before: that point did not
    write it back. -/
theorem before1_3_B (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frame

end
-- ==== Proof.KbShare1.lean ====
/-
  The second region's arrays, for a layout where two windows read one array.  The region's four windows stand on
  three buffers: the weight matrix, the scaled embedding (read by both row windows) and the result.  Holding the
  three buffers whole is the same as holding each window's array at its share when the two row windows take the two
  halves of the scaled embedding and all four agree with the buffers' contents.
-/
import proofs.«103079_j4286377361973_2_alg».proof.Proof.Gen.Kernel.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD)

/-- The three distinct buffers behind the four windows, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4)
          ∗ (((c : Thread nD τ).loc main_v5) ↦{fullShare} V main_v5)) := by
  unfold Pipeline.arrBufs
  rw [show Finset.univ.image (Pipeline.arrRef spec1) = ({main_arg0, main_v4, main_v5} : Finset (Ref sig .tc)) from by decide,
    BI.bigSep_insert (by decide), BI.bigSep_insert (by decide), BI.bigSep_singleton]
  rfl

/-- Each window's array at its share, one by one, for proof data whose row windows hold the two halves. -/
theorem arrays1_eq (dat : Dat τ (Elt F) Unit ℕ (UR sig nD τ) ℕ cfg1 c) (hq0 : dat.q 0 = fullShare) (hq1 : dat.q 1 = fullShare.left) (hq2 : dat.q 2 = fullShare.right)
    (Fn : (w : Fin cfg1.W) → Buf (Elt F) ((cfg1.win w).arr.view.loc (c : Thread nD τ))) :
    (dat.arrays Fn : sProp 𝕄)
      = iprop((((c : Thread nD τ).loc main_arg0) ↦{fullShare} Fn 0) ∗ (((c : Thread nD τ).loc main_v4) ↦{fullShare.left} Fn 1)
          ∗ (((c : Thread nD τ).loc main_v4) ↦{fullShare.right} Fn 2) ∗ (((c : Thread nD τ).loc main_v5) ↦{fullShare} Fn 3)) := by
  unfold Dat.arrays
  rw [bigSep_W1]
  rw [(arr_whole1 0).set_eq_univ, (arr_whole1 1).set_eq_univ, (arr_whole1 3).set_eq_univ]
  unfold Dat.share
  rw [if_neg (by decide : ¬ (cfg1.win 0).isOut = true), if_neg (by decide : ¬ (cfg1.win 1).isOut = true), if_neg (by decide : ¬ (cfg1.win 2).isOut = true),
    if_pos (by decide : (cfg1.win 3).isOut = true), hq0, hq1, hq2]

/-- ENTRY: the three buffers whole at `V` give every window's array at its share. -/
theorem arrays_of_arrBufs1 (dat : Dat τ (Elt F) Unit ℕ (UR sig nD τ) ℕ cfg1 c) (hq0 : dat.q 0 = fullShare) (hq1 : dat.q 1 = fullShare.left) (hq2 : dat.q 2 = fullShare.right)
    (V : (b : Ref sig .tc) → Buf (Elt F) ((c : Thread nD τ).loc b))
    (Fn : (w : Fin cfg1.W) → Buf (Elt F) ((cfg1.win w).arr.view.loc (c : Thread nD τ)))
    (h0 : Fn 0 = V main_arg0) (h1 : Fn 1 = V main_v4) (h2 : Fn 2 = V main_v4) (h3 : Fn 3 = V main_v5) :
    (Pipeline.arrBufs (Ix := Unit) (Name := ℕ) (U := UR sig nD τ) (Lvl := ℕ) spec1 c V : sProp 𝕄) ⊢ dat.arrays Fn := by
  rw [arrBufs1_eq, arrays1_eq c dat hq0 hq1 hq2, h0, h1, h2, h3]
  iintro ⟨H0, H4, H5⟩
  ihave H4 := (pointsTo_share (PosShare.mem_left_op_right fullShare)).1 $$ H4
  icases H4 with ⟨H4l, H4r⟩
  isplitl [H0]; · iexact H0
  isplitl [H4l]; · iexact H4l
  isplitl [H4r]; · iexact H4r
  iexact H5

/-- EXIT: every window's array at its share, all agreeing with `V'`, give back the three buffers whole at `V'`. -/
theorem arrBufs_of_arrays1 (dat : Dat τ (Elt F) Unit ℕ (UR sig nD τ) ℕ cfg1 c) (hq0 : dat.q 0 = fullShare) (hq1 : dat.q 1 = fullShare.left) (hq2 : dat.q 2 = fullShare.right)
    (V' : (b : Ref sig .tc) → Buf (Elt F) ((c : Thread nD τ).loc b))
    (Fn : (w : Fin cfg1.W) → Buf (Elt F) ((cfg1.win w).arr.view.loc (c : Thread nD τ)))
    (h0 : Fn 0 = V' main_arg0) (h1 : Fn 1 = V' main_v4) (h2 : Fn 2 = V' main_v4) (h3 : Fn 3 = V' main_v5) :
    (dat.arrays Fn : sProp 𝕄) ⊢ Pipeline.arrBufs (Ix := Unit) (Name := ℕ) (U := UR sig nD τ) (Lvl := ℕ) spec1 c V' := by
  rw [arrBufs1_eq, arrays1_eq c dat hq0 hq1 hq2, h0, h1, h2, h3]
  iintro ⟨H0, H4l, H4r, H5⟩
  ihave H4 := (pointsTo_share (PosShare.mem_left_op_right fullShare)).2 $$ [H4l H4r]
  · isplitl [H4l] <;> iassumption
  isplitl [H0]; · iexact H0
  isplitl [H4]; · iexact H4
  iexact H5

end

end Cert.Kernel.Frame

end
-- ==== Proof.KbRun.lean ====
/-
  The whole run of the kernel program: the degree region, four host operations (the square root of the degrees, laid
  along the rows, dividing the embedding), the distance region, four host operations (the total of the eight partial
  sums, divided by 16384).  The contents of every buffer at each boundary are a fold through these from the launch
  memory; each region is entered from the buffers at the boundary before it and left at the boundary after it, where
  its result array holds what its write-backs leave.  Every weakly fair execution terminates with every buffer at the
  last boundary's contents; the two arguments are never written.
-/
import proofs.«103079_j4286377361973_2_alg».proof.Proof.Gen.Kernel.Regions
import proofs.«103079_j4286377361973_2_alg».proof.Proof.KbRegion0
import proofs.«103079_j4286377361973_2_alg».proof.Proof.KbBody1
import proofs.«103079_j4286377361973_2_alg».proof.Proof.KbShare1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the first host stretch (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region: the result array at what the write-backs leave, every other buffer as entered. -/
def W3 (c : Dev nD) : Valuation τ sig (Elt F) :=
  Function.update (W2 m c) (Proc.devRef .tc main_v5) ((dat1 (V2 m) c).arrAt 3 cfg1.N : Buf (Elt F) ((c : Thread nD τ).loc main_v5))
theorem W3_v5 (c : Dev nD) : W3 m c (Proc.devRef .tc main_v5) = (dat1 (V2 m) c).arrAt 3 cfg1.N := by
  unfold W3; exact Function.update_self ..
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b
/-- After the second host stretch: the end. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := W1_of_ne m c main_arg1 (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The degree region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's exit contents agree with its entry contents off the result array, -/
theorem hrest1 (c : Dev nD) : ∀ b, b ∉ Finset.univ.image (Pipeline.arrRef spec1) → V3 m c b = V2 m c b :=
  fun b hb => W3_of_ne m c b fun e => hb (Finset.mem_image.mpr ⟨3, Finset.mem_univ _, e ▸ rfl⟩)

set_option backward.isDefEq.respectTransparency.types false in
/-- The distance region: entered from `W2`, left at `W3`.  Its two row windows read one array: at entry that buffer
    is split into its two halves, one per window, and at exit — neither window writes — the halves are joined again. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp := Pipeline.unscopedBufs_split₀ (Ix := Unit) (Name := ℕ) (U := UR sig nD τ) (Lvl := ℕ) (Val := Elt F) cfgs 1 winFacts₀1.arr_unscoped c (V2 m c)
    rw [Pipeline.unscopedBufs_held] at hsp
    iintro ⟨⟨Hub, Hp, HO⟩, -, -⟩
    ihave H := (Entails.of_eq hsp) $$ Hub
    icases H with ⟨Ha, Hrest⟩
    ihave Ha := (arrays_of_arrBufs1 c (pdats m 1 c) rfl rfl rfl (V2 m c) ((pdats m 1 c).arrAt · 0) rfl rfl rfl rfl) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Val := Elt F) cfgs 1 winFacts₀1.arr_unscoped c (V3 m c)
    rw [Pipeline.unscopedBufs_held] at hsp
    have hrest : (Pipeline.unscopedRest (Ix := Unit) (Name := ℕ) (U := UR sig nD τ) (Lvl := ℕ) spec1 c (V2 m c) : sProp 𝕄)
        ⊢ Pipeline.unscopedRest (cfgs 1).spec c (V3 m c) := Entails.of_eq (by
      unfold Pipeline.unscopedRest
      exact BI.bigSep_congr fun b hb => by rw [hrest1 m c b (Finset.mem_sdiff.mp hb).2])
    iintro ⟨Ha, HO, HY, Hrest⟩
    ihave Ha := (arrBufs_of_arrays1 c (pdats m 1 c) rfl rfl rfl (V3 m c) ((pdats m 1 c).arrAt · cfg1.N)
      (((pdats m 1 c).arrAt_in 0 rfl _).trans ((A_eq1 (V2 m) c 0).trans (W3_of_ne m c main_arg0 (by decide)).symm))
      (((pdats m 1 c).arrAt_in 1 rfl _).trans ((A_eq1 (V2 m) c 1).trans (W3_of_ne m c main_v4 (by decide)).symm))
      (((pdats m 1 c).arrAt_in 2 rfl _).trans ((A_eq1 (V2 m) c 2).trans (W3_of_ne m c main_v4 (by decide)).symm))
      (W3_v5 m c).symm) $$ Ha
    imodintro
    isplitl [Ha Hrest]
    · iapply (Entails.of_eq hsp.symm)
      isplitl [Ha]; · iexact Ha
      iapply hrest; iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every buffer that lives between the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

end Cert.Kernel.Frame

end
-- ==== Proof.KiRegion0.lean ====
/-
  The first kernel region: the degree vector.  The grid has 16 points; point t reads rows 512·t … 512·t + 511 of the
  weight matrix (a 512 × 8192 block) and writes their 512 row sums to entries 512·t … 512·t + 511 of the degree
  vector.  Stated at a parameter `V`, the buffers' contents when the region is entered: a block of the matrix at a
  point, what the body leaves in the output's staging buffer (the row sums of that block), the body's triple, and the
  pipeline's proof data with its obligation at every point.
-/
import proofs.«103079_j4286377361973_2_alg».proof.Proof.Gen.KernelIdeal.Launch
import proofs.«103079_j4286377361973_2_alg».proof.Proof.Gen.KernelIdeal.Skeleton
import proofs.«103079_j4286377361973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The matrix block is in the input's staging buffer at every point, for any proof data on the entry contents whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 8192 block, and the whole 512-entry output block. -/
abbrev rIn0 : Rect S512x8192 := Rect.unit (s := S512x8192) ![0, 0] S512x8192.size inb_S512x8192_S512x8192_0_0
abbrev rOut0 : Rect S512 := Rect.unit (s := S512) ![0] S512.size inb_S512_S512_0

/-- What the body leaves in the output's staging buffer: the row sums of the block it read. -/
def out0_1 (x0 : Vec F S512x8192 .f32) : Vec F S512 .f32 :=
  View.canon [⟨rOut0, k0_pay1 (View.ld x0 rIn0)⟩]

/-- The one store covers the output block. -/
theorem cover0_1 (p0 : Vec F S512 .f32) (y : S512.Idx) :
    ∃ pc ∈ ([⟨rOut0, p0⟩] : List (View.Piece (Elt F) S512 .f32)), y ∈ pc.1.set :=
  View.cover_of_tiled [⟨rOut0, p0⟩] S512.size (by rfl) y

set_option maxHeartbeats 1000000 in
/-- The body on whole staging buffers, the input's at the block `x0` and the output's at anything, runs to the end
    leaving the input's as it was and the output's at the row sums of `x0`. -/
theorem sound_kernel0 (c : Dev nD) (E : Set ℕ) (i : grid0.Coords) (arg1 : Memref sig .tc .vmem S512x8192 .f32) (harg1 : arg1.IsWhole) (arg2 : Memref sig .tc .vmem S512 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`: the arrays as the region finds them; after the body at point
    `t` the input's buffer at its block and the output's at that block's row sums; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frame

end
-- ==== Proof.KiRegion1.lean ====
/-
  The second kernel region: the weighted clamped squared distances, summed per row tile.  The grid is 8 × 8; point
  t = 8·I + J reads the 1024 × 1024 block (I, J) of the weight matrix, rows 1024·I … of the scaled embedding (the
  "i" rows) and rows 1024·J … of the same array (the "j" rows), and adds the block's weighted sum to a one-entry
  accumulator, which it first zeroes when J = 0; the accumulator is written back to entry I of the result after the
  point with J = 7.  The two row windows read ONE array, so each holds half of it.
  Stated at a parameter `V`, the buffers' contents when the region is entered.
-/
import proofs.«103079_j4286377361973_2_alg».proof.Proof.Gen.KernelIdeal.Launch
import proofs.«103079_j4286377361973_2_alg».proof.Proof.Gen.KernelIdeal.Skeleton
import proofs.«103079_j4286377361973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's block is in its staging buffer at every point, fetched there or not (the "i" rows are fetched only
    when J = 0: in between their block index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "J = 0", as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points 8·I. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the accumulator window, through which its contents are stated. -/
abbrev VO1_3 : View sig .tc .vmem S1x1x1 .f32 := (Memref.whole cc1_stg3_0 : Memref sig .tc .vmem S1x1x1 .f32).view
/-- Each window's current staging memref at point `t`, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)

set_option maxHeartbeats 4000000 in
/-- The body when J = 0: on whole staging buffers, the three inputs' at their blocks and the accumulator's at
    anything, it runs to the end leaving the inputs' as they were and the accumulator's with the stores it made
    (the zero, then the block's sum added to it), listed as pieces, last first. -/
noncomputable def kernelRun1_A (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 : Vec F S1024x64 .f32) (x2 : Vec F S1024x64 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__loss_kernel i arg2 harg2 arg3 harg3 arg4 harg4 arg5 harg5) K } := by
  refine ⟨?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The body when J ≠ 0: the accumulator's buffer at its running contents `xo3`; it leaves the inputs' as they were
    and the accumulator's with the one store it made (the block's sum added to `xo3`). -/
noncomputable def kernelRun1_B (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 : Vec F S1024x64 .f32) (x2 : Vec F S1024x64 .f32) (xo3 : Vec F S1x1x1 .f32) :
    { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc1__loss_kernel i arg2 harg2 arg3 harg3 arg4 harg4 arg5 harg5) K } := by
  refine ⟨?_, fun E K => ?run⟩
  case run =>
    simp only [cc1__loss_kernel_eq_skeleton]; unfold cc1__loss_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end

end Cert.KernelIdeal.Frame

end
-- ==== Proof.KiBody1.lean ====
/-
  The second kernel region, continued: what each case of the body leaves in the accumulator's staging buffer, the
  accumulator after every point by recursion on the point (at a point 8·I the zero plus that block's sum; at any other
  point the previous point's contents plus the block's sum), the pipeline's proof data — the two row windows each at
  half of their common array — and the body obligation at every point.
-/
import proofs.«103079_j4286377361973_2_alg».proof.Proof.KiRegion1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The stores of the case J = 0 cover the one-entry block. -/
theorem cover1_A_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 x2 : Vec F S1024x64 .f32) (y : S1x1x1.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S1x1x1.size (by sl_kernel_rfl) y

/-- What the case J = 0 leaves in the accumulator's buffer. -/
def out1_A_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : cond1_0 i)
    (x0 : Vec F S1024x1024 .f32) (x1 x2 : Vec F S1024x64 .f32) : Vec F S1x1x1 .f32 :=
  VO1_3.read (Elt F) (VO1_3.writes (Elt F) VO1_3.junk (kernelRun1_A c i arg2 harg2 arg3 harg3 arg4 harg4 arg5 harg5 hc0 x0 x1 x2).1)

/-- The store of the case J ≠ 0 covers the one-entry block. -/
theorem cover1_B_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 x2 : Vec F S1024x64 .f32) (xo3 : Vec F S1x1x1 .f32) (y : S1x1x1.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S1x1x1.size (by sl_kernel_rfl) y

/-- What the case J ≠ 0 leaves in the accumulator's buffer, from its running contents `xo3`. -/
def out1_B_3 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x1x1 .f32) (harg5 : arg5.IsWhole) (hc0 : ¬cond1_0 i)
    (x0 : Vec F S1024x1024 .f32) (x1 x2 : Vec F S1024x64 .f32) (xo3 : Vec F S1x1x1 .f32) : Vec F S1x1x1 .f32 :=
  VO1_3.read (Elt F) (VO1_3.writes (Elt F) VO1_3.junk (kernelRun1_B c i arg2 harg2 arg3 harg3 arg4 harg4 arg5 harg5 hc0 x0 x1 x2 xo3).1)

/-- THE ACCUMULATION: the accumulator's staging buffer after the body at position `n`. -/
def outsAt1 (c : Dev nD) : (n : ℕ) → n < cfg1.N → Vec F S1x1x1 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the second pipeline on core `c`: the arrays as the region finds them; after the body at point
    `t` each input's buffer at its block and the accumulator's at `outsAt1`; nothing owed; the two row windows at the
    two halves of their common array, the others at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point with J ≠ 0 the accumulator's buffer holds what the body left at the point before: that point did not
    write it back. -/
theorem before1_3_B (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frame

end
-- ==== Proof.KiShare1.lean ====
/-
  The second region's arrays, for a layout where two windows read one array.  The region's four windows stand on
  three buffers: the weight matrix, the scaled embedding (read by both row windows) and the result.  Holding the
  three buffers whole is the same as holding each window's array at its share when the two row windows take the two
  halves of the scaled embedding and all four agree with the buffers' contents.
-/
import proofs.«103079_j4286377361973_2_alg».proof.Proof.Gen.KernelIdeal.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD)

/-- The three distinct buffers behind the four windows, one by one. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0) ∗ (((c : Thread nD τ).loc main_v4) ↦{fullShare} V main_v4)
          ∗ (((c : Thread nD τ).loc main_v5) ↦{fullShare} V main_v5)) := by
  unfold Pipeline.arrBufs
  rw [show Finset.univ.image (Pipeline.arrRef spec1) = ({main_arg0, main_v4, main_v5} : Finset (Ref sig .tc)) from by decide,
    BI.bigSep_insert (by decide), BI.bigSep_insert (by decide), BI.bigSep_singleton]
  rfl

/-- Each window's array at its share, one by one, for proof data whose row windows hold the two halves. -/
theorem arrays1_eq (dat : Dat τ (Elt F) Unit ℕ (UR sig nD τ) ℕ cfg1 c) (hq0 : dat.q 0 = fullShare) (hq1 : dat.q 1 = fullShare.left) (hq2 : dat.q 2 = fullShare.right)
    (Fn : (w : Fin cfg1.W) → Buf (Elt F) ((cfg1.win w).arr.view.loc (c : Thread nD τ))) :
    (dat.arrays Fn : sProp 𝕄)
      = iprop((((c : Thread nD τ).loc main_arg0) ↦{fullShare} Fn 0) ∗ (((c : Thread nD τ).loc main_v4) ↦{fullShare.left} Fn 1)
          ∗ (((c : Thread nD τ).loc main_v4) ↦{fullShare.right} Fn 2) ∗ (((c : Thread nD τ).loc main_v5) ↦{fullShare} Fn 3)) := by
  unfold Dat.arrays
  rw [bigSep_W1]
  rw [(arr_whole1 0).set_eq_univ, (arr_whole1 1).set_eq_univ, (arr_whole1 3).set_eq_univ]
  unfold Dat.share
  rw [if_neg (by decide : ¬ (cfg1.win 0).isOut = true), if_neg (by decide : ¬ (cfg1.win 1).isOut = true), if_neg (by decide : ¬ (cfg1.win 2).isOut = true),
    if_pos (by decide : (cfg1.win 3).isOut = true), hq0, hq1, hq2]

/-- ENTRY: the three buffers whole at `V` give every window's array at its share. -/
theorem arrays_of_arrBufs1 (dat : Dat τ (Elt F) Unit ℕ (UR sig nD τ) ℕ cfg1 c) (hq0 : dat.q 0 = fullShare) (hq1 : dat.q 1 = fullShare.left) (hq2 : dat.q 2 = fullShare.right)
    (V : (b : Ref sig .tc) → Buf (Elt F) ((c : Thread nD τ).loc b))
    (Fn : (w : Fin cfg1.W) → Buf (Elt F) ((cfg1.win w).arr.view.loc (c : Thread nD τ)))
    (h0 : Fn 0 = V main_arg0) (h1 : Fn 1 = V main_v4) (h2 : Fn 2 = V main_v4) (h3 : Fn 3 = V main_v5) :
    (Pipeline.arrBufs (Ix := Unit) (Name := ℕ) (U := UR sig nD τ) (Lvl := ℕ) spec1 c V : sProp 𝕄) ⊢ dat.arrays Fn := by
  rw [arrBufs1_eq, arrays1_eq c dat hq0 hq1 hq2, h0, h1, h2, h3]
  iintro ⟨H0, H4, H5⟩
  ihave H4 := (pointsTo_share (PosShare.mem_left_op_right fullShare)).1 $$ H4
  icases H4 with ⟨H4l, H4r⟩
  isplitl [H0]; · iexact H0
  isplitl [H4l]; · iexact H4l
  isplitl [H4r]; · iexact H4r
  iexact H5

/-- EXIT: every window's array at its share, all agreeing with `V'`, give back the three buffers whole at `V'`. -/
theorem arrBufs_of_arrays1 (dat : Dat τ (Elt F) Unit ℕ (UR sig nD τ) ℕ cfg1 c) (hq0 : dat.q 0 = fullShare) (hq1 : dat.q 1 = fullShare.left) (hq2 : dat.q 2 = fullShare.right)
    (V' : (b : Ref sig .tc) → Buf (Elt F) ((c : Thread nD τ).loc b))
    (Fn : (w : Fin cfg1.W) → Buf (Elt F) ((cfg1.win w).arr.view.loc (c : Thread nD τ)))
    (h0 : Fn 0 = V' main_arg0) (h1 : Fn 1 = V' main_v4) (h2 : Fn 2 = V' main_v4) (h3 : Fn 3 = V' main_v5) :
    (dat.arrays Fn : sProp 𝕄) ⊢ Pipeline.arrBufs (Ix := Unit) (Name := ℕ) (U := UR sig nD τ) (Lvl := ℕ) spec1 c V' := by
  rw [arrBufs1_eq, arrays1_eq c dat hq0 hq1 hq2, h0, h1, h2, h3]
  iintro ⟨H0, H4l, H4r, H5⟩
  ihave H4 := (pointsTo_share (PosShare.mem_left_op_right fullShare)).2 $$ [H4l H4r]
  · isplitl [H4l] <;> iassumption
  isplitl [H0]; · iexact H0
  isplitl [H4]; · iexact H4
  iexact H5

end

end Cert.KernelIdeal.Frame

end
-- ==== Proof.KiRun.lean ====
/-
  The whole run of the kernel program: the degree region, four host operations (the square root of the degrees, laid
  along the rows, dividing the embedding), the distance region, four host operations (the total of the eight partial
  sums, divided by 16384).  The contents of every buffer at each boundary are a fold through these from the launch
  memory; each region is entered from the buffers at the boundary before it and left at the boundary after it, where
  its result array holds what its write-backs leave.  Every weakly fair execution terminates with every buffer at the
  last boundary's contents; the two arguments are never written.
-/
import proofs.«103079_j4286377361973_2_alg».proof.Proof.Gen.KernelIdeal.Regions
import proofs.«103079_j4286377361973_2_alg».proof.Proof.KiRegion0
import proofs.«103079_j4286377361973_2_alg».proof.Proof.KiBody1
import proofs.«103079_j4286377361973_2_alg».proof.Proof.KiShare1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the first host stretch (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region: the result array at what the write-backs leave, every other buffer as entered. -/
def W3 (c : Dev nD) : Valuation τ sig (Elt F) :=
  Function.update (W2 m c) (Proc.devRef .tc main_v5) ((dat1 (V2 m) c).arrAt 3 cfg1.N : Buf (Elt F) ((c : Thread nD τ).loc main_v5))
theorem W3_v5 (c : Dev nD) : W3 m c (Proc.devRef .tc main_v5) = (dat1 (V2 m) c).arrAt 3 cfg1.N := by
  unfold W3; exact Function.update_self ..
theorem W3_of_ne (c : Dev nD) (b : Ref sig .tc) (hb : b ≠ main_v5) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b
/-- After the second host stretch: the end. -/
abbrev W4 : Dev nD → Valuation τ sig (Elt F) := fun c => StableHlo.after hostOps2 (W3 m c)

/-! ### The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (r := main_arg0) (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (r := main_arg1) (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := W1_of_ne m c main_arg1 (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The degree region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second region's exit contents agree with its entry contents off the result array, -/
theorem hrest1 (c : Dev nD) : ∀ b, b ∉ Finset.univ.image (Pipeline.arrRef spec1) → V3 m c b = V2 m c b :=
  fun b hb => W3_of_ne m c b fun e => hb (Finset.mem_image.mpr ⟨3, Finset.mem_univ _, e ▸ rfl⟩)

set_option backward.isDefEq.respectTransparency.types false in
/-- The distance region: entered from `W2`, left at `W3`.  Its two row windows read one array: at entry that buffer
    is split into its two halves, one per window, and at exit — neither window writes — the halves are joined again. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp := Pipeline.unscopedBufs_split₀ (Ix := Unit) (Name := ℕ) (U := UR sig nD τ) (Lvl := ℕ) (Val := Elt F) cfgs 1 winFacts₀1.arr_unscoped c (V2 m c)
    rw [Pipeline.unscopedBufs_held] at hsp
    iintro ⟨⟨Hub, Hp, HO⟩, -, -⟩
    ihave H := (Entails.of_eq hsp) $$ Hub
    icases H with ⟨Ha, Hrest⟩
    ihave Ha := (arrays_of_arrBufs1 c (pdats m 1 c) rfl rfl rfl (V2 m c) ((pdats m 1 c).arrAt · 0) rfl rfl rfl rfl) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Val := Elt F) cfgs 1 winFacts₀1.arr_unscoped c (V3 m c)
    rw [Pipeline.unscopedBufs_held] at hsp
    have hrest : (Pipeline.unscopedRest (Ix := Unit) (Name := ℕ) (U := UR sig nD τ) (Lvl := ℕ) spec1 c (V2 m c) : sProp 𝕄)
        ⊢ Pipeline.unscopedRest (cfgs 1).spec c (V3 m c) := Entails.of_eq (by
      unfold Pipeline.unscopedRest
      exact BI.bigSep_congr fun b hb => by rw [hrest1 m c b (Finset.mem_sdiff.mp hb).2])
    iintro ⟨Ha, HO, HY, Hrest⟩
    ihave Ha := (arrBufs_of_arrays1 c (pdats m 1 c) rfl rfl rfl (V3 m c) ((pdats m 1 c).arrAt · cfg1.N)
      (((pdats m 1 c).arrAt_in 0 rfl _).trans ((A_eq1 (V2 m) c 0).trans (W3_of_ne m c main_arg0 (by decide)).symm))
      (((pdats m 1 c).arrAt_in 1 rfl _).trans ((A_eq1 (V2 m) c 1).trans (W3_of_ne m c main_v4 (by decide)).symm))
      (((pdats m 1 c).arrAt_in 2 rfl _).trans ((A_eq1 (V2 m) c 2).trans (W3_of_ne m c main_v4 (by decide)).symm))
      (W3_v5 m c).symm) $$ Ha
    imodintro
    isplitl [Ha Hrest]
    · iapply (Entails.of_eq hsp.symm)
      isplitl [Ha]; · iexact Ha
      iapply hrest; iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every buffer that lives between the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c), (h c _ (mem_uc main_arg1 (by decide))).trans (W4_main_arg1 m c)⟩) (run_all m ρ)

end Cert.KernelIdeal.Frame

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«103079_j4286377361973_2_alg».proof.Proof.LibDotIdx
import proofs.«103079_j4286377361973_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibSums.lean ====
/-
  General facts about sums over the index sets of literal shapes, on any additive commutative monoid, and
  about the total of a vector's entries under the layout and reduction operations at the ideal instance:
  a sum over a rank-3 or rank-4 index set is the iterated sum over its coordinates; a sum over
  `Fin (m * n)` splits into `m` consecutive stretches of length `n`; a reshape keeps the total of the entries;
  a float add-reduction over any axes keeps the total (each entry lands in exactly one reduced cell); a vector
  with exactly one entry has that entry as its total.
-/
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the `m` stretches of the sums over each stretch's `n` places:
    place `r` of stretch `q` is `r + n * q`. -/
theorem sum_fin_stretches {M : Type*} [AddCommMonoid M] (m n : Nat) (g : Fin (m * n) → M) :
    ∑ k, g k = ∑ q : Fin m, ∑ r : Fin n, g (finProdFinEquiv (q, r)) := by
  rw [← Equiv.sum_comp finProdFinEquiv g, Fintype.sum_prod_type]

/-- A reshape keeps the total of the entries: it only re-indexes them. -/
theorem sum_shapeCast {M : Type} [AddCommMonoid M] {s t : Shape} (x : s.Idx → M) (h : s.ShapeCasts t) :
    ∑ j, shapeCast t x h j = ∑ i, x i :=
  Equiv.sum_comp (Shape.reshapeEquiv h) x

/-- A float add-reduction at the ideal instance keeps the total of the entries: every source entry is added into
    exactly one cell of the result. -/
theorem sum_multiReduction_add {φ : FTy} {s t : Shape} {axes : List (Fin s.rank)} (src : FVec Ideal s φ) (acc : BitVec φ.bits)
    (h : s.Reduces axes t) (hφ : FKind.Formats φ) (hacc : acc = FKind.add.neutral φ hφ) :
    ∑ j, multiReduction .add axes t src acc h hφ hacc j = ∑ i, src i := by
  show ∑ j, Ideal.reduceAdd h src j = ∑ i, src i
  unfold Ideal.reduceAdd
  exact Finset.sum_fiberwise Finset.univ (fun i => h.drop i) src

/-- A vector over an index set with exactly one element has that element's entry as its total. -/
theorem eq_sum_of_unique {M : Type*} [AddCommMonoid M] {ι : Type*} [Fintype ι] [Subsingleton ι] (x : ι → M) (i : ι) :
    x i = ∑ k, x k := by
  haveI : Unique ι := uniqueOfSubsingleton i
  rw [Fintype.sum_unique]
  exact congrArg x (Subsingleton.elim _ _)

/-- The index set of a shape whose every axis has extent one has at most one element. -/
theorem subsingleton_idx_of_unit {s : Shape} (hs : ∀ a, s.size a = 1) : Subsingleton s.Idx :=
  ⟨fun i j => funext fun a => Fin.ext (by have := (i a).isLt; have := (j a).isLt; have := hs a; omega)⟩

end Cert.Sums

end
-- ==== Proof.KiHost.lean ====
/-
  The kernel program's two stretches of host operations, read at an index at the exact extended reals.

  The first stretch scales the embedding: the degree vector's square root, laid along the 64 columns, divides the
  embedding entry by entry; at `(i, k)` the result is the embedding's entry over the root of row `i`'s degree.
  The second adds the eight partial sums the blocks' rows left and divides the total by 16384.
  Each is stated first for arbitrary operands, then for the buffers' contents after the stretch has run.
-/
import proofs.«103079_j4286377361973_2_alg».proof.Proof.Gen.KernelIdeal.Launch
import proofs.«103079_j4286377361973_2_alg».proof.Proof.LibRowOps
import proofs.«103079_j4286377361973_2_alg».proof.Proof.LibSums
import Idealize.ShloMosaic.Lib.ValueIdx
import Idealize.ShloMosaic.Lib.StableHlo.Run
import Idealize.ShloMosaic.PureOps.Ideal.Laws

noncomputable section

namespace Cert.KernelIdeal.HostIdx

open Cert.KernelIdeal Cert.KernelIdeal.Gen Idealize.ShloMosaic Idealize.ShloMosaic.ValueIdx Idealize.SL.Sem

/-- The word `0x46800000` denotes the real number 16384: exponent 141, no fraction. -/
theorem ofBits_16384 : Ideal.ofBits .f32 0x46800000#32 = ((16384 : ℝ) : EReal) := by
  simp [Ideal.ofBits, Ideal.ieee, -EReal.coe_mul]; norm_num

/-! ## The two stretches over arbitrary operands -/

/-- The scaled embedding at `(i, k)`: the embedding's entry divided by the square root of entry `i` of the
    degree vector. -/
theorem scaled_apply (d : FVec Ideal S8192 .f32) (y : FVec Ideal S8192x64 .f32) (i : Fin 8192) (k : Fin 64) :
    Host.divf (F := Ideal) y (broadcastInDim S8192x64 ![0, 1] bcast_S8192x1_S8192x64_0_1
        (broadcastInDim S8192x1 ![0] bcast_S8192_S8192x1_0 (Host.sqrt (F := Ideal) d))) (ix2 i k)
      = Ideal.div (y (ix2 i k)) (Ideal.sqrt (d (ix1 i))) :=
  congrArg (Ideal.div (y (ix2 i k)))
    (Cert.LibRowOps.colVec_host_apply (Host.sqrt (F := Ideal) d) bcast_S8192_S8192x1_0 bcast_S8192x1_S8192x64_0_1 i k)

/-- The result: the eight partial sums added up, from zero, and divided by 16384. -/
theorem result_apply (v : FVec Ideal S8x1x1 .f32) :
    Host.divf (F := Ideal)
        (Host.reduceAdd (F := Ideal) v (constant (F := Ideal) S_ .f32 0x00000000#32) reducesTo_S8x1x1_S_d0_1_2 h_S_)
        (constant (F := Ideal) S_ .f32 0x46800000#32) ix0
      = Ideal.div (∑ I : Fin 8, v (ix3 I 0 0)) ((16384 : ℝ) : EReal) := by
  show Ideal.div (Ideal.hostReduceAdd reducesTo_S8x1x1_S_d0_1_2 v (Ideal.ofBits .f32 0x00000000#32) ix0)
      (Ideal.ofBits .f32 0x46800000#32) = _
  rw [Ideal.hostReduceAdd_total _ (fun b => b.elim0), Ideal.ofBits_zero_f32, zero_add, ofBits_16384,
    Cert.Sums.sum_idx3]
  simp only [Fin.sum_univ_one]

/-! ## The same two for the buffers' contents after each stretch -/

/-- After the first stretch the scaled embedding's buffer holds the composite of its four operations applied to the
    degree vector's and the embedding's buffers as the stretch found them. -/
theorem after_hostOps1_v4 (W : Valuation τ sig (Elt Ideal)) :
    (StableHlo.after (hostOps1 (F := Ideal)) W (Proc.devRef .tc main_v4) : (⟨S8192x64, .f32⟩ : BufTy).Contents (Elt Ideal))
      = Host.divf (F := Ideal) (φ := .f32) (W (Proc.devRef .tc main_arg1) : (⟨S8192x64, .f32⟩ : BufTy).Contents (Elt Ideal))
          (broadcastInDim S8192x64 ![0, 1] bcast_S8192x1_S8192x64_0_1
            (broadcastInDim S8192x1 ![0] bcast_S8192_S8192x1_0
              (Host.sqrt (F := Ideal) (φ := .f32) (W (Proc.devRef .tc main_v0) : (⟨S8192, .f32⟩ : BufTy).Contents (Elt Ideal))))) := by
  after_results

/-- After the second stretch the result buffer holds the composite of its four operations applied to the buffer of
    partial sums as the stretch found it. -/
theorem after_hostOps2_v7 (W : Valuation τ sig (Elt Ideal)) :
    (StableHlo.after (hostOps2 (F := Ideal)) W (Proc.devRef .tc main_v7) : (⟨S_, .f32⟩ : BufTy).Contents (Elt Ideal))
      = Host.divf (F := Ideal) (φ := .f32)
          (Host.reduceAdd (F := Ideal) (φ := .f32) (W (Proc.devRef .tc main_v5) : (⟨S8x1x1, .f32⟩ : BufTy).Contents (Elt Ideal))
            (constant (F := Ideal) S_ .f32 0x00000000#32) reducesTo_S8x1x1_S_d0_1_2 h_S_)
          (constant (F := Ideal) S_ .f32 0x46800000#32) := by
  after_results

/-- So, after the first stretch, the scaled embedding at `(i, k)`. -/
theorem after_hostOps1_v4_apply (W : Valuation τ sig (Elt Ideal)) (i : Fin 8192) (k : Fin 64) :
    (StableHlo.after (hostOps1 (F := Ideal)) W (Proc.devRef .tc main_v4) : (⟨S8192x64, .f32⟩ : BufTy).Contents (Elt Ideal)) (ix2 i k)
      = Ideal.div ((W (Proc.devRef .tc main_arg1) : (⟨S8192x64, .f32⟩ : BufTy).Contents (Elt Ideal)) (ix2 i k))
          (Ideal.sqrt ((W (Proc.devRef .tc main_v0) : (⟨S8192, .f32⟩ : BufTy).Contents (Elt Ideal)) (ix1 i))) :=
  (congrFun (after_hostOps1_v4 W) (ix2 i k)).trans (scaled_apply _ _ i k)

/-- And, after the second, the result. -/
theorem after_hostOps2_v7_apply (W : Valuation τ sig (Elt Ideal)) :
    (StableHlo.after (hostOps2 (F := Ideal)) W (Proc.devRef .tc main_v7) : (⟨S_, .f32⟩ : BufTy).Contents (Elt Ideal)) ix0
      = Ideal.div (∑ I : Fin 8, (W (Proc.devRef .tc main_v5) : (⟨S8x1x1, .f32⟩ : BufTy).Contents (Elt Ideal)) (ix3 I 0 0))
          ((16384 : ℝ) : EReal) :=
  (congrFun (after_hostOps2_v7 W) ix0).trans (result_apply _)

end Cert.KernelIdeal.HostIdx

end
-- ==== Proof.LibCols.lean ====
/-
  Rank-2 arrays read at `(p, q)` through three layout operations, generic in the extents: a slice of consecutive
  columns, a transpose, and one row laid down every row.
-/
import Idealize.ShloMosaic.Lib.ValueIdx
import Idealize.ShloMosaic.Lib.Pipeline.Value

noncomputable section

namespace Cert.LibCols

open Idealize.ShloMosaic Idealize.ShloMosaic.ValueIdx

/-- A slice of `w` columns starting at column `o`: at `(r, k)` it is the operand at `(r, o + k)`. -/
theorem slice_cols {α : Type} {N C w : Nat} (o : Nat) (x : (⟨2, ![N, C]⟩ : Shape).Idx → α)
    (h : (⟨2, ![N, C]⟩ : Shape).Slices ![0, o] ⟨2, ![N, w]⟩) (r : Fin N) (k : Fin w) (c : Fin C) (hc : c.val = o + k.val) :
    extractStridedSlice ⟨2, ![N, w]⟩ ![0, o] x h (ix2 r k) = x (ix2 r c) :=
  extractStridedSlice_apply ![0, o] x h (ix2 r k) (ix2 r c) (fun a => match a with
    | ⟨0, _⟩ => by show r.val = 0 + r.val; omega
    | ⟨1, _⟩ => hc)

/-- The transpose of an `[a, b]` array at `(j, i)` is the operand at `(i, j)`. -/
theorem transpose2_apply {α : Type} {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun bb => match bb with
    | ⟨0, _⟩ => rfl
    | ⟨1, _⟩ => rfl)

/-- One row laid down `m` rows: at `(p, q)` it is the row's entry `q`. -/
theorem bcastRow_apply {α : Type} {m n : Nat} (y : (⟨2, ![1, n]⟩ : Shape).Idx → α)
    (hb : (⟨2, ![1, n]⟩ : Shape).Broadcasts ⟨2, ![m, n]⟩) (p : Fin m) (q : Fin n) :
    broadcastTo ⟨2, ![m, n]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

end Cert.LibCols

end
-- ==== Proof.Payloads.lean ====
/-
  The two kernel bodies' arithmetic read at an index, at the exact extended reals.

  Region 0 sums each row of a 512 × 8192 block of weights.  Region 1 takes two 1024 × 64 blocks `yi`, `yj` of
  scaled embeddings and a 1024 × 1024 block `w` of weights, forms for every pair `(p, q)` the squared distance
  expanded as  (‖yi p‖² + ‖yj q‖²) + Σ_k (yi p k · (−2)) · yj q k,  clamps it at zero, multiplies by `w p q`, sums
  the block (along the rows, then down the column of row sums) and adds the total to a one-element accumulator.
  Narrowing the two operands of the inner product to half precision changes nothing on the extended reals.
-/
import proofs.«103079_j4286377361973_2_alg».proof.Proof.Gen.KernelIdeal.Skeleton
import proofs.«103079_j4286377361973_2_alg».proof.Proof.LibRowOps
import proofs.«103079_j4286377361973_2_alg».proof.Proof.LibCols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## General readings -/

/-- The single-precision word `0xC0000000` is −2: sign set, exponent 128, no fraction. -/
theorem ofBits_neg2 : Ideal.ofBits .f32 0xC0000000#32 = (-2 : EReal) := by
  simp [Ideal.ofBits, Ideal.ieee]
  rw [← EReal.coe_mul]
  norm_num
  rfl

/-- The index of an `[a, b]` array that reduces along the columns into `j`, with row `k`, is `(k, j)`. -/
theorem lift_cols {a b : ℕ} (h : (⟨2, ![a, b]⟩ : Shape).Reduces [0] ⟨1, ![b]⟩) (j : Fin b) (k : Fin a) :
    h.lift (ix1 j) k = ix2 k j :=
  funext fun ax => Fin.ext (by
    match ax with
    | ⟨0, _⟩ => rfl
    | ⟨1, _⟩ => rfl)

/-- A sum along the columns, at column `q`: the sum of the column (the neutral accumulator adds nothing). -/
theorem colSum_kernel_apply {a b : Nat} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  rw [Ideal.multiReduction_add_single]
  exact Finset.sum_congr rfl fun k _ => congrArg src (lift_cols h q k)

/-- Between two one-element shapes a cast reads the operand's one element, whatever the two indices. -/
theorem shapeCast_one_apply {α : Type} {s t : Shape} (x : s.Idx → α) (h : s.ShapeCasts t)
    (hs : s.numel = 1) (ht : t.numel = 1) (j : t.Idx) (k : s.Idx) : shapeCast t x h j = x k :=
  shapeCast_apply x h j k (by
    have e1 := (s.rowMajor k).isLt
    have e2 := (t.rowMajor j).isLt
    omega)

/-- A vector of per-row results cast to one column, the column turned into one row, the row laid down every row:
    at `(p, q)` it is entry `q`. -/
theorem rowOfCol_kernel_apply {α : Type} {a b : Nat} (v : (⟨1, ![a]⟩ : Shape).Idx → α)
    (h1 : (⟨1, ![a]⟩ : Shape).ShapeCasts ⟨2, ![a, 1]⟩)
    (ht : (⟨2, ![a, 1]⟩ : Shape).Transposes [1, 0] ⟨2, ![1, a]⟩)
    (hb : (⟨2, ![1, a]⟩ : Shape).Broadcasts ⟨2, ![b, a]⟩) (p : Fin b) (q : Fin a) :
    broadcastTo ⟨2, ![b, a]⟩ (transpose ⟨2, ![1, a]⟩ [1, 0] (shapeCast ⟨2, ![a, 1]⟩ v h1) ht) hb (ix2 p q)
      = v (ix1 q) :=
  (Cert.LibCols.bcastRow_apply _ hb p q).trans
    ((Cert.LibCols.transpose2_apply (shapeCast ⟨2, ![a, 1]⟩ v h1) ht q (0 : Fin 1)).trans
      (Cert.SupCon.Ker.shapeCast_a_a1_apply v h1 q (0 : Fin 1)))

/-! ## Region 0: the row sums -/

/-- The row sums of a block of weights, at row `p`. -/
theorem k0_pay1_apply (v0 : Vec Ideal S512x8192 .f32) (p : Fin 512) :
    k0_pay1 (F := Ideal) v0 (ix1 p) = ∑ j : Fin 8192, v0 (ix2 p j) := by
  unfold k0_pay1
  exact Cert.LibRowOps.rowSum_kernel_apply v0 _ _ _ _ p

/-! ## Region 1: the zero fill -/

/-- The accumulator starts at zero. -/
theorem k1_pay1_apply (i : S1x1x1.Idx) : k1_pay1 (F := Ideal) i = 0 := by
  unfold k1_pay1
  exact Ideal.ofBits_zero_f32

/-! ## Region 1: the pieces of a block's contribution -/

/-- The squared lengths of the rows of a block of embeddings. -/
def sqRows (y : FVec Ideal S1024x64 .f32) : FVec Ideal S1024 .f32 :=
  multiReduction .add [1] S1024 (mulf y y) 0x00000000#32 reduces_S1024x64_S1024 (.inl rfl) rfl

theorem sqRows_apply (y : FVec Ideal S1024x64 .f32) (p : Fin 1024) :
    sqRows y (ix1 p) = ∑ k : Fin 64, y (ix2 p k) * y (ix2 p k) := by
  unfold sqRows
  exact Cert.LibRowOps.rowSum_kernel_apply (mulf y y) _ _ _ _ p

/-- The squared lengths of `yi`'s rows laid along the columns. -/
def sqAcross (yi : FVec Ideal S1024x64 .f32) : FVec Ideal S1024x1024 .f32 :=
  broadcastTo S1024x1024 (shapeCast S1024x1 (sqRows yi) shapeCasts_S1024_S1024x1) broadcasts_S1024x1_S1024x1024

theorem sqAcross_apply (yi : FVec Ideal S1024x64 .f32) (p q : Fin 1024) :
    sqAcross yi (ix2 p q) = ∑ k : Fin 64, yi (ix2 p k) * yi (ix2 p k) := by
  unfold sqAcross
  exact (Cert.LibRowOps.colVec_kernel_apply (sqRows yi) _ _ p q).trans (sqRows_apply yi p)

/-- The squared lengths of `yj`'s rows laid down the rows. -/
def sqDown (yj : FVec Ideal S1024x64 .f32) : FVec Ideal S1024x1024 .f32 :=
  broadcastTo S1024x1024
    (transpose S1x1024 [1, 0] (shapeCast S1024x1 (sqRows yj) shapeCasts_S1024_S1024x1) transposes_S1024x1_p1_0_S1x1024)
    broadcasts_S1x1024_S1024x1024

theorem sqDown_apply (yj : FVec Ideal S1024x64 .f32) (p q : Fin 1024) :
    sqDown yj (ix2 p q) = ∑ k : Fin 64, yj (ix2 q k) * yj (ix2 q k) := by
  unfold sqDown
  exact (rowOfCol_kernel_apply (sqRows yj) _ _ _ p q).trans (sqRows_apply yj q)

/-- The inner products of `yi`'s rows, scaled by −2, with `yj`'s rows: a matrix product into a zero accumulator,
    both operands narrowed to half precision, the second transposed. -/
def crossNeg2 (yi yj : FVec Ideal S1024x64 .f32) : FVec Ideal S1024x1024 .f32 :=
  matmul dot_S1024x64_S64x1024_S1024x1024_1_0_0_1_n_n none
    (truncf .bf16 (mulf yi (broadcast S1024x64 (Scalar.ofBits .f32 0xC0000000#32))) bitsLt_bf16_f32)
    (transpose S64x1024 [1, 0] (truncf .bf16 yj bitsLt_bf16_f32) transposes_S1024x64_p1_0_S64x1024)
    (constant S1024x1024 .f32 0x00000000#32)

theorem crossNeg2_apply (yi yj : FVec Ideal S1024x64 .f32) (p q : Fin 1024) :
    crossNeg2 yi yj (ix2 p q) = ∑ k : Fin 64, (yi (ix2 p k) * (-2 : EReal)) * yj (ix2 q k) := by
  unfold crossNeg2
  refine (DotIdx.matmul_plain_zero_apply dot_S1024x64_S64x1024_S1024x1024_1_0_0_1_n_n_wf none _ _ p q).trans ?_
  refine Finset.sum_congr rfl fun c _ => ?_
  have e1 : (truncf .bf16 (mulf yi (broadcast S1024x64 (Scalar.ofBits .f32 0xC0000000#32))) bitsLt_bf16_f32 :
      FVec Ideal S1024x64 .bf16) (ix2 p c) = yi (ix2 p c) * (-2 : EReal) :=
    congrArg (yi (ix2 p c) * ·) ofBits_neg2
  have e2 : (transpose S64x1024 [1, 0] (truncf .bf16 yj bitsLt_bf16_f32 : FVec Ideal S1024x64 .bf16)
      transposes_S1024x64_p1_0_S64x1024) (ix2 c q) = yj (ix2 q c) :=
    Cert.LibCols.transpose2_apply (truncf .bf16 yj bitsLt_bf16_f32 : FVec Ideal S1024x64 .bf16) _ q c
  rw [e1, e2]

/-- The block of clamped squared distances times the weights. -/
def block (yi yj : FVec Ideal S1024x64 .f32) (w : FVec Ideal S1024x1024 .f32) : FVec Ideal S1024x1024 .f32 :=
  mulf (maximumf (addf (addf (sqAcross yi) (sqDown yj)) (crossNeg2 yi yj))
    (broadcast S1024x1024 (Scalar.ofBits .f32 0x00000000#32))) w

theorem block_apply (yi yj : FVec Ideal S1024x64 .f32) (w : FVec Ideal S1024x1024 .f32) (p q : Fin 1024) :
    block yi yj w (ix2 p q)
      = max (((∑ k : Fin 64, yi (ix2 p k) * yi (ix2 p k)) + (∑ k : Fin 64, yj (ix2 q k) * yj (ix2 q k)))
              + ∑ k : Fin 64, (yi (ix2 p k) * (-2 : EReal)) * yj (ix2 q k)) 0 * w (ix2 p q) := by
  show max ((sqAcross yi (ix2 p q) + sqDown yj (ix2 p q)) + crossNeg2 yi yj (ix2 p q))
      (Ideal.ofBits .f32 0x00000000#32) * w (ix2 p q) = _
  rw [sqAcross_apply, sqDown_apply, crossNeg2_apply, Ideal.ofBits_zero_f32]

/-- A block summed along the rows, then down the column of row sums, cast to one element and added to the
    accumulator. -/
def total (B : FVec Ideal S1024x1024 .f32) (acc : FVec Ideal S1x1x1 .f32) : FVec Ideal S1x1x1 .f32 :=
  addf (shapeCast S1x1x1 acc shapeCasts_S1x1x1_S1x1x1)
    (shapeCast S1x1x1
      (shapeCast S1x1
        (multiReduction .add [0] S1
          (shapeCast S1024x1
            (multiReduction .add [1] S1024 B 0x00000000#32 reduces_S1024x1024_S1024 (.inl rfl) rfl)
            shapeCasts_S1024_S1024x1)
          0x00000000#32 reduces_S1024x1_S1 (.inl rfl) rfl)
        shapeCasts_S1_S1x1)
      shapeCasts_S1x1_S1x1x1)

theorem total_apply (B : FVec Ideal S1024x1024 .f32) (acc : FVec Ideal S1x1x1 .f32) (i : S1x1x1.Idx) :
    total B acc i = acc i + ∑ p : Fin 1024, ∑ q : Fin 1024, B (ix2 p q) := by
  unfold total
  refine (addf_apply _ _ i).trans ?_
  refine congrArg₂ (· + ·) (congrFun (shapeCast_self acc _) i) ?_
  refine (shapeCast_one_apply _ shapeCasts_S1x1_S1x1x1 (by decide) (by decide) i (ix2 (0 : Fin 1) (0 : Fin 1))).trans ?_
  refine (shapeCast_one_apply _ shapeCasts_S1_S1x1 (by decide) (by decide) _ (ix1 (0 : Fin 1))).trans ?_
  refine (colSum_kernel_apply _ _ _ _ _ (0 : Fin 1)).trans ?_
  refine Finset.sum_congr rfl fun p _ => ?_
  refine (Cert.SupCon.Ker.shapeCast_a_a1_apply _ shapeCasts_S1024_S1024x1 p (0 : Fin 1)).trans ?_
  exact Cert.LibRowOps.rowSum_kernel_apply B _ _ _ _ p

/-! ## Region 1: a block's contribution -/

/-- The body's arithmetic is the total of the block, the two same-shape casts of the loaded embeddings aside. -/
theorem k1_pay2_eq (yi yj : Vec Ideal S1024x64 .f32) (w : Vec Ideal S1024x1024 .f32) (acc : Vec Ideal S1x1x1 .f32) :
    k1_pay2 (F := Ideal) yi yj w acc
      = total (block (shapeCast S1024x64 yi shapeCasts_S1024x64_S1024x64)
          (shapeCast S1024x64 yj shapeCasts_S1024x64_S1024x64) w) acc := rfl

/-- The accumulator plus, over the pairs `(p, q)` of the block, the clamped squared distance times the weight. -/
theorem k1_pay2_apply (yi yj : Vec Ideal S1024x64 .f32) (w : Vec Ideal S1024x1024 .f32)
    (acc : Vec Ideal S1x1x1 .f32) (i : S1x1x1.Idx) :
    k1_pay2 (F := Ideal) yi yj w acc i = acc i + ∑ p : Fin 1024, ∑ q : Fin 1024,
      max (((∑ k : Fin 64, yi (ix2 p k) * yi (ix2 p k)) + (∑ k : Fin 64, yj (ix2 q k) * yj (ix2 q k)))
            + ∑ k : Fin 64, (yi (ix2 p k) * (-2 : EReal)) * yj (ix2 q k)) 0 * w (ix2 p q) := by
  rw [k1_pay2_eq, shapeCast_self, shapeCast_self, total_apply]
  exact congrArg (acc i + ·) (Finset.sum_congr rfl fun p _ => Finset.sum_congr rfl fun q _ => block_apply yi yj w p q)

end Cert.KernelIdeal.Pay

end
-- ==== Proof.Spec.lean ====
/-
  The loss both programs compute, as plain functions of the two input arrays on the extended reals.

  For a weight matrix `W` (8192 × 8192) and an embedding `Y` (8192 × 64):
    deg i        = Σ_j W i j                                   the degree of row i
    yn i k       = Y i k / √(deg i)                             row i of Y scaled by the inverse root degree
    sq i         = Σ_k (yn i k)²                                its squared length
  and the loss is the sum over all pairs (i, j) of  W i j · max (‖yn i − yn j‖², 0), divided by 2·8192 = 16384.

  The two programs expand the squared distance differently.  The reference writes
    (sq i + sq j) − 2 · Σ_k yn i k · yn j k                     (`refTerm`),
  the kernel folds the factor −2 into the first operand of the inner product,
    (sq i + sq j) + Σ_k (yn i k · (−2)) · yn j k                (`kerTerm`),
  and multiplies by the weight on the other side.  On the extended reals these agree when every scaled entry is a
  real number — distributivity of a real factor over a finite sum of reals — and they can differ when a degree is
  zero, where a scaled row holds both infinities.  So the joining law `kerLoss_eq_refLoss` assumes what makes
  every scaled entry real: real inputs and positive degrees.
-/
import Idealize.ShloMosaic.PureOps.Ideal
import Idealize.ShloMosaic.PureOps.Ideal.Laws

noncomputable section

namespace Cert.Spec

open Idealize.ShloMosaic

variable (W : Fin 8192 → Fin 8192 → EReal) (Y : Fin 8192 → Fin 64 → EReal)

/-- The degree of row `i`: the sum of its weights. -/
def deg (i : Fin 8192) : EReal := ∑ j, W i j

/-- Entry `(i, k)` of the embedding scaled by the inverse square root of row `i`'s degree. -/
def yn (i : Fin 8192) (k : Fin 64) : EReal := Ideal.div (Y i k) (Ideal.sqrt (deg W i))

/-- The squared length of scaled row `i`. -/
def sq (i : Fin 8192) : EReal := ∑ k, yn W Y i k * yn W Y i k

/-- The inner product of scaled rows `i` and `j`. -/
def dot (i j : Fin 8192) : EReal := ∑ k, yn W Y i k * yn W Y j k

/-- The same inner product with the factor −2 folded into the first operand, term by term. -/
def dotNeg2 (i j : Fin 8192) : EReal := ∑ k, (yn W Y i k * (-2 : EReal)) * yn W Y j k

/-- The reference's term for the pair `(i, j)`: the weight times the clamped squared distance,
    the distance expanded as `(sq i + sq j) − 2 · dot i j`. -/
def refTerm (i j : Fin 8192) : EReal := W i j * max ((sq W Y i + sq W Y j) - (2 : EReal) * dot W Y i j) 0

/-- The kernel's term for the pair `(i, j)`: the clamped squared distance times the weight,
    the distance expanded as `(sq i + sq j) + dotNeg2 i j`. -/
def kerTerm (i j : Fin 8192) : EReal := max ((sq W Y i + sq W Y j) + dotNeg2 W Y i j) 0 * W i j

/-- The reference's loss. -/
def refLoss : EReal := Ideal.div (∑ i, ∑ j, refTerm W Y i j) ((16384 : ℝ) : EReal)

/-- The kernel's loss. -/
def kerLoss : EReal := Ideal.div (∑ i, ∑ j, kerTerm W Y i j) ((16384 : ℝ) : EReal)

end Cert.Spec

end
-- ==== Proof.KiValue0.lean ====
/-
  The first kernel region, from blocks to the whole array: after its 16 points the degree vector holds, at entry i,
  the sum of row i of the weight matrix as the region found it.

  Point t writes entries 512·t … 512·t + 511 of the vector, and what it writes at entry 512·t + p is the sum of row p
  of the 512 × 8192 block it read, which is row 512·t + p of the matrix.  Entry r lies in the block of point r / 512,
  so the sixteen blocks cover the vector, and the vector is the row sums of the matrix.
-/
import proofs.«103079_j4286377361973_2_alg».proof.Proof.KiRegion0
import proofs.«103079_j4286377361973_2_alg».proof.Proof.Payloads
import proofs.«103079_j4286377361973_2_alg».proof.Proof.Spec
import Idealize.ShloMosaic.Lib.Pipeline.Value
import Idealize.ShloMosaic.Lib.ValueIdx
import Idealize.ShloMosaic.PureOps.Ideal.Laws

noncomputable section

namespace Cert.KernelIdeal.Value0

open Cert.KernelIdeal Cert.KernelIdeal.Gen Cert.KernelIdeal.Frame
open Idealize.ShloMosaic Idealize.ShloMosaic.TcCoe Idealize.SL.Sem
open Idealize.ShloMosaic.Pipeline (Dat)

/-! ## The row sums, and the body's result at an entry -/

/-- Every row's sum: entry `i` is the sum of row `i` of the matrix. -/
def rowSums (a : S8192x8192.Idx → EReal) : S8192.Idx → EReal :=
  fun i => ∑ j : Fin 8192, a (ValueIdx.ix2 (i 0) j)

theorem rowSums_apply (a : S8192x8192.Idx → EReal) (p : Fin 8192) :
    rowSums a (ValueIdx.ix1 p) = ∑ j : Fin 8192, a (ValueIdx.ix2 p j) := rfl

theorem hz1 : (![0] : Fin 1 → Nat) = fun _ => 0 := funext fun a => by fin_cases a; rfl
theorem hz2 : (![0, 0] : Fin 2 → Nat) = fun _ => 0 := funext fun a => by fin_cases a <;> rfl

/-- The body's result at entry `y` of a block — the sum of row `y` of the block it loaded — is the matrix's row sum at
    entry `i` of the vector, when the block holds rows `512·tv …` of the matrix and `i` is entry `512·tv + y`. -/
theorem point_eq (a : S8192x8192.Idx → EReal) (x0 : Vec Ideal S512x8192 .f32) (tv : Nat) (y : S512.Idx) (i : S8192.Idx)
    (hx : ∀ (p : Fin 512) (j : Fin 8192) (k : S8192x8192.Idx),
      (k 0).val = tv * 512 + p.val → (k 1).val = j.val → x0 (ValueIdx.ix2 p j) = a k)
    (hi : (i 0).val = tv * 512 + (y 0).val) :
    k0_pay1 (F := Ideal) x0 y = rowSums a i := by
  obtain ⟨p, rfl⟩ : ∃ p : Fin 512, y = ValueIdx.ix1 p := ⟨y 0, ValueIdx.eq_ix1 y⟩
  rw [Cert.KernelIdeal.Pay.k0_pay1_apply]
  unfold rowSums
  exact Finset.sum_congr rfl fun j _ => hx p j _ hi rfl

/-! ## The blocks -/

section
variable (V : (c : Dev nD) → (b : Ref sig .tc) → Buf (Elt Ideal) ((c : Thread nD τ).loc b))

/-- The index maps over the grid: point `t` reads block `(t, 0)` of the matrix and writes block `t` of the
    vector. -/
theorem idx_facts0 : ∀ t : Fin cfg0.N, win0_0.index t (0 : Fin 2) = t.val ∧ win0_0.index t (1 : Fin 2) = 0
    ∧ win0_1.index t (0 : Fin 1) = t.val :=
  (by decide +kernel : ∀ t : Fin grid0.N, _)

/-- The matrix block at point `t` is rows `512·t … 512·t + 511` of the matrix. -/
theorem iblk0_apply (c : Dev nD) (t : Fin cfg0.N) (x : S512x8192.Idx) (k : S8192x8192.Idx)
    (hk0 : (k 0).val = t.val * 512 + (x 0).val) (hk1 : (k 1).val = (x 1).val) :
    (iblk0 V c 0 t : Vec Ideal S512x8192 .f32) x = (V c main_arg0 : S8192x8192.Idx → EReal) k := by
  obtain ⟨e0, e1, -⟩ := idx_facts0 t
  unfold iblk0
  rw [View.read_apply]
  show (V c main_arg0 : S8192x8192.Idx → EReal) _ = (V c main_arg0 : S8192x8192.Idx → EReal) k
  refine congrArg (V c main_arg0 : S8192x8192.Idx → EReal) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 8192 + 1 * (x 1).val = (k 1).val; rw [e1, hk1]; omega

/-- What point `t` writes back is block `t` of the matrix's row sums. -/
theorem flushed0_eq (c : Dev nD) (t : Fin cfg0.N) :
    (dat0 (F := Ideal) V c).flushed 1 t
      = ((cfg0.win 1).blk t).view.read (Elt Ideal) (rowSums (V c main_arg0)) := by
  show (cfg0.win 1).cut (grid0.coords t) ((dat0 (F := Ideal) V c).after 1 t) = _
  rw [after0_1]
  unfold out0_1
  rw [View.canon_unit_zero hz1]
  simp only [View.ld_unit_zero (S := S512x8192) hz2]
  obtain ⟨-, -, e2⟩ := idx_facts0 t
  funext y
  show k0_pay1 (F := Ideal) (iblk0 V c 0 t) y = rowSums (V c main_arg0) (((cfg0.win 1).blk t).view.emb y)
  refine point_eq (V c main_arg0) (iblk0 V c 0 t) t.val y (((cfg0.win 1).blk t).view.emb y)
    (fun p j k h0 h1 => iblk0_apply V c t (ValueIdx.ix2 p j) k h0 h1) ?_
  show win0_1.index t (0 : Fin 1) * 512 + 1 * (y 0).val = t.val * 512 + (y 0).val
  rw [e2]; omega

/-- An entry of the vector is in point `t`'s block iff it is in the block's range. -/
theorem mem_blk0 (t : Fin cfg0.N) (i : S8192.Idx) :
    i ∈ ((cfg0.win 1).blk t).view.set
      ↔ ∀ a : Fin 1, win0_1.index t a * S512.size a ≤ (i a).val ∧ (i a).val < win0_1.index t a * S512.size a + S512.size a := by
  show i ∈ ((View.whole main_v0).slice (win0_1.rect t)).set ↔ _
  rw [View.set_slice_whole, Rect.mem_set_unit]
  exact Iff.rfl

/-- Entry `r` of the vector is written by point `r / 512`. -/
theorem cover0 (i : S8192.Idx) :
    ∃ t : Fin cfg0.N, (cfg0.win 1).flush t = true ∧ i ∈ ((cfg0.win 1).blk t).view.set := by
  have hi : (i 0).val < 8192 := (i 0).isLt
  have hlt : (i 0).val / 512 < cfg0.N := by rw [show cfg0.N = 16 from N_0]; omega
  obtain ⟨t, ht⟩ : ∃ t : Fin cfg0.N, t.val = (i 0).val / 512 := ⟨⟨_, hlt⟩, rfl⟩
  obtain ⟨-, -, e2⟩ := idx_facts0 t
  refine ⟨t, flush0_1 t, ?_⟩
  rw [mem_blk0]
  intro a
  match a with
  | ⟨0, _⟩ =>
    show win0_1.index t (0 : Fin 1) * 512 ≤ (i 0).val ∧ (i 0).val < win0_1.index t (0 : Fin 1) * 512 + 512
    rw [e2, ht]; omega

/-! ## The array -/

/-- The degree vector after the region: the row sums of the matrix as the region found it. -/
theorem final0 (c : Dev nD) : (dat0 (F := Ideal) V c).arrAt 1 cfg0.N = rowSums (V c main_arg0) :=
  (dat0 (F := Ideal) V c).arrAt_eq_of_cover 1 (rowSums (V c main_arg0)) (fun t _ => flushed0_eq V c t) cover0

/-- The same at one entry: entry `i` of the vector is the degree of row `i` of the matrix. -/
theorem final0_deg (c : Dev nD) (i : Fin 8192) :
    (dat0 (F := Ideal) V c).arrAt 1 cfg0.N (ValueIdx.ix1 i)
      = Cert.Spec.deg (fun i j => V c main_arg0 (ValueIdx.ix2 i j)) i :=
  congrFun (final0 V c) (ValueIdx.ix1 i)

end

end Cert.KernelIdeal.Value0

end
-- ==== Proof.KiScaled.lean ====
/-
  What the second kernel region is entered with.

  Between the two regions four host operations run: the square root of the degree vector, laid along the 64 columns,
  divides the embedding entry by entry.  They write neither argument, and the first region leaves the weight matrix
  as launched.  So the second region finds the weight matrix as launched, and finds in the scaled embedding's buffer,
  at (i, k), the launch embedding's entry (i, k) over the root of the degree of row i of the launch weight matrix.
-/
import proofs.«103079_j4286377361973_2_alg».proof.Proof.KiRun
import proofs.«103079_j4286377361973_2_alg».proof.Proof.KiValue0
import proofs.«103079_j4286377361973_2_alg».proof.Proof.KiHost

noncomputable section

namespace Cert.KernelIdeal.Scaled

open Cert.KernelIdeal Cert.KernelIdeal.Gen Cert.KernelIdeal.Frame
open Idealize.ShloMosaic Idealize.ShloMosaic.TcCoe Idealize.SL.Sem
open Idealize.ShloMosaic.Pipeline (Dat)

variable (m : (ℓ : Loc nD τ sig) → Buf (Elt Ideal) ℓ)

/-! ## After the first region -/

/-- The first region leaves the weight matrix as launched: its window only reads it. -/
theorem w_mid (c : Dev nD) : W1 m c (Proc.devRef .tc main_arg0) = m ((c : Thread nD τ).loc main_arg0) :=
  calc W1 m c (Proc.devRef .tc main_arg0)
    _ = W0 m c (Proc.devRef .tc main_arg0) :=
        (W1_arr m c 0).trans (((dat0 (V0 m) c).arrAt_in 0 rfl _).trans (A_eq0 (V0 m) c 0))
    _ = m ((c : Thread nD τ).loc main_arg0) := rfl

/-- The first region does not touch the embedding. -/
theorem y_mid (c : Dev nD) : W1 m c (Proc.devRef .tc main_arg1) = m ((c : Thread nD τ).loc main_arg1) :=
  (W1_of_ne m c main_arg1 (by decide)).trans rfl

/-- After the first region, entry `i` of the degree vector is the degree of row `i` of the launch weight matrix. -/
theorem deg_mid (c : Dev nD) (i : Fin 8192) :
    (W1 m c (Proc.devRef .tc main_v0) : (⟨S8192, .f32⟩ : BufTy).Contents (Elt Ideal)) (ValueIdx.ix1 i)
      = Cert.Spec.deg (fun i j => m ((c : Thread nD τ).loc main_arg0) (ValueIdx.ix2 i j)) i :=
  (congrFun (W1_arr m c 1) (ValueIdx.ix1 i)).trans (Cert.KernelIdeal.Value0.final0_deg (V0 m) c i)

/-! ## At the second region's entry -/

/-- The weight matrix reaches the second region as launched: the host operations between the regions do not write it. -/
theorem w_entry (c : Dev nD) : V2 (F := Ideal) m c main_arg0 = m ((c : Thread nD τ).loc main_arg0) :=
  calc V2 (F := Ideal) m c main_arg0
    _ = W1 m c (Proc.devRef .tc main_arg0) :=
        StableHlo.after_of_writes_sub hostOps1 _ hostOps1_writes (r := main_arg0) (by decide)
    _ = m ((c : Thread nD τ).loc main_arg0) := w_mid m c

/-- The scaled embedding the second region reads: at `(i, k)`, the launch embedding's entry over the root of the
    degree of row `i` of the launch weight matrix. -/
theorem scaled_entry (c : Dev nD) (i : Fin 8192) (k : Fin 64) :
    (V2 (F := Ideal) m c main_v4 : (⟨S8192x64, .f32⟩ : BufTy).Contents (Elt Ideal)) (ValueIdx.ix2 i k)
      = Cert.Spec.yn (fun i j => m ((c : Thread nD τ).loc main_arg0) (ValueIdx.ix2 i j))
          (fun i k => m ((c : Thread nD τ).loc main_arg1) (ValueIdx.ix2 i k)) i k := by
  refine (Cert.KernelIdeal.HostIdx.after_hostOps1_v4_apply (W1 m c) i k).trans ?_
  rw [y_mid m c, deg_mid m c i]
  rfl

end Cert.KernelIdeal.Scaled

end
-- ==== Proof.KiTerm.lean ====
/-
  The kernel's term for a pair of rows as a function of any weight matrix and any scaled embedding, and the
  regrouping of a double sum over 8192 × 8192 pairs into 8 × 8 blocks of 1024 × 1024 pairs.

  Row `1024·I + p` is place `p` of stretch `I`: a sum over all 8192 rows is the sum over the eight stretches of the
  sums over each stretch's 1024 places, and a double sum over pairs of rows is the sum over pairs of stretches of the
  sums over pairs of places.
-/
import proofs.«103079_j4286377361973_2_alg».proof.Proof.Spec
import proofs.«103079_j4286377361973_2_alg».proof.Proof.LibSums

noncomputable section

open scoped BigOperators

namespace Cert.KernelIdeal.Value1

/-- The kernel's term for the pair `(i, j)` over a weight matrix `Wm` and scaled rows `Z`: the clamped squared
    distance, expanded with the factor −2 folded into the inner product's first operand, times the weight. -/
def kerTermOf (Wm : Fin 8192 → Fin 8192 → EReal) (Z : Fin 8192 → Fin 64 → EReal) (i j : Fin 8192) : EReal :=
  max (((∑ k, Z i k * Z i k) + (∑ k, Z j k * Z j k)) + ∑ k, (Z i k * (-2 : EReal)) * Z j k) 0 * Wm i j

/-- The specification's kernel term is that function of the weights and the scaled embedding. -/
theorem kerTerm_eq (W : Fin 8192 → Fin 8192 → EReal) (Y : Fin 8192 → Fin 64 → EReal) (i j : Fin 8192) :
    Cert.Spec.kerTerm W Y i j = kerTermOf W (Cert.Spec.yn W Y) i j := rfl

/-- Row `1024·I + p`: place `p` of stretch `I`. -/
def row (I : Fin 8) (p : Fin 1024) : Fin 8192 := ⟨1024 * I.val + p.val, by omega⟩

@[simp] theorem row_val (I : Fin 8) (p : Fin 1024) : (row I p).val = 1024 * I.val + p.val := rfl

/-- A sum over the 8192 rows is the sum over the eight stretches of the sums over each stretch's 1024 places. -/
theorem sum_rows {M : Type*} [AddCommMonoid M] (g : Fin 8192 → M) :
    ∑ i, g i = ∑ I : Fin 8, ∑ p : Fin 1024, g (row I p) := by
  refine (Cert.Sums.sum_fin_stretches 8 1024 g).trans ?_
  refine Finset.sum_congr rfl fun I _ => Finset.sum_congr rfl fun p _ => congrArg g (Fin.ext ?_)
  show p.val + 1024 * I.val = 1024 * I.val + p.val
  omega

/-- A double sum over pairs of rows is the sum over pairs of stretches of the sums over pairs of places. -/
theorem sum_blocks {M : Type*} [AddCommMonoid M] (f : Fin 8192 → Fin 8192 → M) :
    ∑ i, ∑ j, f i j = ∑ I : Fin 8, ∑ J : Fin 8, ∑ p : Fin 1024, ∑ q : Fin 1024, f (row I p) (row J q) := by
  rw [sum_rows]
  refine Finset.sum_congr rfl fun I _ => ?_
  rw [Finset.sum_congr rfl fun p _ => sum_rows (fun j => f (row I p) j)]
  exact Finset.sum_comm

end Cert.KernelIdeal.Value1

end
-- ==== Proof.KiValue1.lean ====
/-
  The second kernel region read as a value, at the exact extended reals.

  The grid is 8 × 8.  Point t = 8·I + J reads the 1024 × 1024 weight block (I, J), rows 1024·I … of the scaled
  embedding and rows 1024·J … of the same array, and adds to a one-entry accumulator the sum, over the block's pairs
  (p, q), of the kernel's term for rows 1024·I + p and 1024·J + q.  The accumulator is zeroed at J = 0 and written to
  entry I of the result after J = 7.  So after point 8·I + J it holds the contributions of blocks (I, 0) … (I, J), and
  entry I of the result ends at the sum of the kernel's terms over rows 1024·I … 1024·I + 1023 and all 8192 columns,
  grouped block by block.
-/
import proofs.«103079_j4286377361973_2_alg».proof.Proof.KiBody1
import Idealize.ShloMosaic.Lib.Pipeline.Value
import Idealize.ShloMosaic.Lib.Tactic
import Idealize.ShloMosaic.Lib.ValueIdx
import proofs.«103079_j4286377361973_2_alg».proof.Proof.Payloads
import proofs.«103079_j4286377361973_2_alg».proof.Proof.KiTerm

set_option maxRecDepth 16384

noncomputable section

namespace Cert.KernelIdeal.Value1

open Cert.KernelIdeal Cert.KernelIdeal.Gen Cert.KernelIdeal.Frame
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the accumulator: its arithmetic on the three blocks -/

/-- At a point with J ≠ 0 the body leaves, in the accumulator holding `xo3`, its arithmetic on the weight block `x0`,
    the "i" rows `x1`, the "j" rows `x2` and `xo3`: its one store covers the entry and its loads read whole buffers. -/
theorem out_B (c : Dev nD) (i : grid1.Coords) (a2 : Memref sig .tc .vmem S1024x1024 .f32) (h2 : a2.IsWhole)
    (a3 : Memref sig .tc .vmem S1024x64 .f32) (h3 : a3.IsWhole) (a4 : Memref sig .tc .vmem S1024x64 .f32) (h4 : a4.IsWhole)
    (a5 : Memref sig .tc .vmem S1x1x1 .f32) (h5 : a5.IsWhole) (hc : ¬cond1_0 i)
    (x0 : Vec F S1024x1024 .f32) (x1 x2 : Vec F S1024x64 .f32) (xo3 : Vec F S1x1x1 .f32) :
    out1_B_3 c i a2 h2 a3 h3 a4 h4 a5 h5 hc x0 x1 x2 xo3 = k1_pay2 x1 x2 x0 xo3 := by
  unfold out1_B_3
  rw [View.read_writes_eq_canon _ _ _ (cover1_B_3 c i a2 h2 a3 h3 a4 h4 a5 h5 hc x0 x1 x2 xo3)]
  unfold kernelRun1_B
  dsimp only
  rw [View.canon_unit_zero (S := S1x1x1) hz3]
  simp only [View.readAt_eq_ld, h2.read_unread, h3.read_unread, h4.read_unread, h5.read_unread,
    View.ld_unit_zero (S := S1024x64) hz2, View.ld_unit_zero (S := S1024x1024) hz2, View.ld_unit_zero (S := S1x1x1) hz3]

/-- At a point with J = 0 the body first stores the zero fill, reads it back, and leaves its arithmetic on the three
    blocks and the zero fill. -/
theorem out_A (c : Dev nD) (i : grid1.Coords) (a2 : Memref sig .tc .vmem S1024x1024 .f32) (h2 : a2.IsWhole)
    (a3 : Memref sig .tc .vmem S1024x64 .f32) (h3 : a3.IsWhole) (a4 : Memref sig .tc .vmem S1024x64 .f32) (h4 : a4.IsWhole)
    (a5 : Memref sig .tc .vmem S1x1x1 .f32) (h5 : a5.IsWhole) (hc : cond1_0 i)
    (x0 : Vec F S1024x1024 .f32) (x1 x2 : Vec F S1024x64 .f32) :
    out1_A_3 c i a2 h2 a3 h3 a4 h4 a5 h5 hc x0 x1 x2 = k1_pay2 x1 x2 x0 k1_pay1 := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S1024x64) hz2, View.ld_unit_zero (S := S1024x1024) hz2]

/-! ## The blocks, read where the index maps say -/

/-- The grid has 64 points. -/
theorem N64 : cfg1.N = 64 := N_1

/-- Point `t = 8·I + J`: its row-tile number `I` and its column-tile number `J`. -/
def tI (t : Fin cfg1.N) : Fin 8 := ⟨t.val / 8, by have h : t.val < 64 := lt_of_lt_of_eq t.isLt N64; omega⟩
def tJ (t : Fin cfg1.N) : Fin 8 := ⟨t.val % 8, Nat.mod_lt _ (by decide)⟩

/-- The index maps at point `t`, decided once over the grid: the weight window is at block `(I, J)`, the "i" rows at
    `(I, 0)`, the "j" rows at `(J, 0)`, the accumulator at `(I, 0, 0)`. -/
theorem idx_facts : ∀ t : Fin cfg1.N, win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = t.val % 8 ∧ win1_2.index t (1 : Fin 2) = 0
    ∧ win1_3.index t (0 : Fin 3) = t.val / 8 ∧ win1_3.index t (1 : Fin 3) = 0 ∧ win1_3.index t (2 : Fin 3) = 0 :=
  (by decide +kernel : ∀ t : Fin grid1.N, _)

section
variable (V : (c : Dev nD) → (b : Ref sig .tc) → Buf (Elt F) ((c : Thread nD τ).loc b))

/-- The weight block at point `t`, entry `(p, q)`, is the weight matrix at row `1024·I + p`, column `1024·J + q`. -/
theorem iblk1_0_apply (c : Dev nD) (t : Fin cfg1.N) (p q : Fin 1024) :
    (iblk1 V c 0 t : Vec F S1024x1024 .f32) (ix2 p q) = V c main_arg0 (ix2 (row (tI t) p) (row (tJ t) q)) := by
  obtain ⟨e0, e1, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 1024 + 1 * q.val = 1024 * (t.val % 8) + q.val; rw [e1]; omega

/-- The "i" rows at point `t`, entry `(p, k)`, are the scaled embedding at row `1024·I + p`. -/
theorem iblk1_1_apply (c : Dev nD) (t : Fin cfg1.N) (p : Fin 1024) (k : Fin 64) :
    (iblk1 V c 1 t : Vec F S1024x64 .f32) (ix2 p k) = V c main_v4 (ix2 (row (tI t) p) k) := by
  obtain ⟨-, -, e0, e1, -⟩ := idx_facts t
  unfold iblk1
  rw [View.read_apply]
  show V c main_v4 _ = V c main_v4 _
  refine congrArg (V c main_v4) (funext fun a => Fin.ext ?_)
  match a with
  | ⟨0, _⟩ => show win1_1.index t (0 : Fin 2) * 1024 + 1 * p.val = 1024 * (t.val / 8) + p.val; rw [e0]; omega
  | ⟨1, _⟩ => show win1_1.index t (1 : Fin 2) * 64 + 1 * k.val = k.val; rw [e1]; omega

/-- The "j" rows at point `t`, entry `(q, k)`, are the scaled embedding at row `1024·J + q`. -/
theorem iblk1_2_apply (c : Dev nD) (t : Fin cfg1.N) (q : Fin 1024) (k : Fin 64) :
    (iblk1 V c 2 t : Vec F S1024x64 .f32) (ix2 q k) = V c main_v4 (ix2 (row (tJ t) q) k) := by
  obtain ⟨-, -, -, -, e0, e1, -⟩ := idx_facts t
  unfold iblk1
  rw [View.read_apply]
  show V c main_v4 _ = V c main_v4 _
  refine congrArg (V c main_v4) (funext fun a => Fin.ext ?_)
  match a with
  | ⟨0, _⟩ => show win1_2.index t (0 : Fin 2) * 1024 + 1 * q.val = 1024 * (t.val % 8) + q.val; rw [e0]; omega
  | ⟨1, _⟩ => show win1_2.index t (1 : Fin 2) * 64 + 1 * k.val = k.val; rw [e1]; omega

end

/-! ## The accumulator after every point, at the exact extended reals -/

section Sums
variable (Wm : Fin 8192 → Fin 8192 → EReal) (Z : Fin 8192 → Fin 64 → EReal)

/-- The contribution of block `(I, J)`: the sum of the kernel's terms over its 1024 × 1024 pairs of rows. -/
def blockSum (I J : Fin 8) : EReal := ∑ p : Fin 1024, ∑ q : Fin 1024, kerTermOf Wm Z (row I p) (row J q)

/-- The same for a natural column-tile number, zero outside the grid. -/
def blockSumN (I : Fin 8) (J : ℕ) : EReal := if h : J < 8 then blockSum Wm Z I ⟨J, h⟩ else 0

/-- The contributions of blocks `(I, 0)` … `(I, j)`. -/
def partialSum (I : Fin 8) (j : ℕ) : EReal := ∑ J ∈ Finset.range (j + 1), blockSumN Wm Z I J

theorem partialSum_zero (I : Fin 8) : partialSum Wm Z I 0 = blockSum Wm Z I ⟨0, by decide⟩ := by
  unfold partialSum
  rw [Finset.sum_range_one]
  exact dif_pos (by decide)

theorem partialSum_succ (I : Fin 8) (j : ℕ) (hj : j + 1 < 8) :
    partialSum Wm Z I (j + 1) = partialSum Wm Z I j + blockSum Wm Z I ⟨j + 1, hj⟩ := by
  unfold partialSum
  rw [Finset.sum_range_succ]
  exact congrArg (_ + ·) (dif_pos hj)

theorem partialSum_seven (I : Fin 8) : partialSum Wm Z I 7 = ∑ J : Fin 8, blockSum Wm Z I J := by
  unfold partialSum
  rw [← Fin.sum_univ_eq_sum_range (fun J => blockSumN Wm Z I J) 8]
  exact Finset.sum_congr rfl fun J _ => dif_pos J.isLt

end Sums

section Generic
variable (V : (c : Dev nD) → (b : Ref sig .tc) → Buf (Elt F) ((c : Thread nD τ).loc b))

/-- The accumulator after a point with J = 0: the body's arithmetic on the point's blocks and the zero fill. -/
theorem outsAt_A (c : Dev nD) (t : Fin cfg1.N) (h0 : t.val % 8 = 0) :
    outsAt1 V c t.val t.isLt = k1_pay2 (iblk1 V c 1 t) (iblk1 V c 2 t) (iblk1 V c 0 t) k1_pay1 :=
  (outsAt1_A V c t h0).trans
    (out_A c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t))

/-- The accumulator after a point with J ≠ 0: the body's arithmetic on the point's blocks and the accumulator after
    the point before. -/
theorem outsAt_B (c : Dev nD) (t : Fin cfg1.N) (h0 : ¬t.val % 8 = 0) :
    outsAt1 V c t.val t.isLt = k1_pay2 (iblk1 V c 1 t) (iblk1 V c 2 t) (iblk1 V c 0 t)
      (outsAt1 V c (t.val - 1) (Nat.lt_of_le_of_lt (Nat.sub_le _ _) t.isLt)) :=
  (outsAt1_B V c t h0).trans
    (out_B c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt)))

end Generic

section AtIdeal
variable (V : (c : Dev nD) → (b : Ref sig .tc) → Buf (Elt Ideal) ((c : Thread nD τ).loc b))

/-- The weight matrix and the scaled embedding as the region finds them, entry by entry. -/
abbrev WmOf (c : Dev nD) : Fin 8192 → Fin 8192 → EReal := fun i j => V c main_arg0 (ix2 i j)
abbrev ZOf (c : Dev nD) : Fin 8192 → Fin 64 → EReal := fun i k => V c main_v4 (ix2 i k)

/-- The body's arithmetic at point `t` adds block `(I, J)`'s contribution to the accumulator. -/
theorem pay_at (c : Dev nD) (t : Fin cfg1.N) (acc : Vec Ideal S1x1x1 .f32) (i : S1x1x1.Idx) :
    k1_pay2 (F := Ideal) (iblk1 V c 1 t) (iblk1 V c 2 t) (iblk1 V c 0 t) acc i
      = acc i + blockSum (WmOf V c) (ZOf V c) (tI t) (tJ t) := by
  refine (Cert.KernelIdeal.Pay.k1_pay2_apply (iblk1 V c 1 t) (iblk1 V c 2 t) (iblk1 V c 0 t) acc i).trans ?_
  refine congrArg (acc i + ·) (Finset.sum_congr rfl fun p _ => Finset.sum_congr rfl fun q _ => ?_)
  simp only [iblk1_0_apply V c t, iblk1_1_apply V c t, iblk1_2_apply V c t]
  rfl

/-- After a point with J = 0 the accumulator holds block `(I, 0)`'s contribution. -/
theorem acc_A (c : Dev nD) (t : Fin cfg1.N) (h0 : t.val % 8 = 0) (i : S1x1x1.Idx) :
    outsAt1 (F := Ideal) V c t.val t.isLt i = blockSum (WmOf V c) (ZOf V c) (tI t) (tJ t) :=
  (congrFun (outsAt_A V c t h0) i).trans ((pay_at V c t _ i).trans (by
    rw [Cert.KernelIdeal.Pay.k1_pay1_apply, zero_add]))

/-- After a point with J ≠ 0 it holds what it held after the point before plus block `(I, J)`'s contribution. -/
theorem acc_B (c : Dev nD) (t : Fin cfg1.N) (h0 : ¬t.val % 8 = 0) (i : S1x1x1.Idx) :
    outsAt1 (F := Ideal) V c t.val t.isLt i
      = outsAt1 (F := Ideal) V c (t.val - 1) (Nat.lt_of_le_of_lt (Nat.sub_le _ _) t.isLt) i
        + blockSum (WmOf V c) (ZOf V c) (tI t) (tJ t) :=
  (congrFun (outsAt_B V c t h0) i).trans (pay_at V c t _ i)

/-- THE ACCUMULATION: after point `n = 8·I + J` the accumulator holds the contributions of blocks `(I, 0)` … `(I, J)`. -/
theorem outsAt_eq (c : Dev nD) : ∀ (n : ℕ) (hn : n < cfg1.N) (i : S1x1x1.Idx),
    outsAt1 (F := Ideal) V c n hn i = partialSum (WmOf V c) (ZOf V c) (tI ⟨n, hn⟩) (n % 8)
  | 0, hn, i => (acc_A V c ⟨0, hn⟩ rfl i).trans (partialSum_zero _ _ _).symm
  | n + 1, hn, i => by
    have hN : n + 1 < 64 := lt_of_lt_of_eq hn N64
    by_cases h0 : (n + 1) % 8 = 0
    · refine (acc_A V c ⟨n + 1, hn⟩ h0 i).trans ?_
      have hJ : tJ ⟨n + 1, hn⟩ = ⟨0, by decide⟩ := Fin.ext h0
      rw [hJ, h0, partialSum_zero]
    · refine (acc_B V c ⟨n + 1, hn⟩ h0 i).trans ?_
      have ih := outsAt_eq c n (Nat.lt_of_succ_lt hn) i
      have hm : (n + 1) % 8 = n % 8 + 1 := by omega
      have hlt : n % 8 + 1 < 8 := by omega
      have hI : tI ⟨n, Nat.lt_of_succ_lt hn⟩ = tI ⟨n + 1, hn⟩ := Fin.ext (by show n / 8 = (n + 1) / 8; omega)
      have hJ : tJ ⟨n + 1, hn⟩ = ⟨n % 8 + 1, hlt⟩ := Fin.ext hm
      show outsAt1 (F := Ideal) V c n _ i + _ = _
      rw [ih, hI, hJ, hm, partialSum_succ _ _ _ _ hlt]

/-! ## From the accumulator to the result array -/

/-- What the result array ends holding: entry `(I, 0, 0)` is the sum of row tile `I`'s eight block contributions. -/
def result (c : Dev nD) : Buf (Elt Ideal) ((c : Thread nD τ).loc main_v5) :=
  fun i => (∑ J : Fin 8, blockSum (WmOf V c) (ZOf V c) ⟨(i 0).val, (i 0).isLt⟩ J : EReal)

/-- An index of the result array is in point `t`'s block iff each coordinate is in the block's range on its axis. -/
theorem mem_blk3 (t : Fin cfg1.N) (i : S8x1x1.Idx) :
    i ∈ ((cfg1.win 3).blk t).view.set
      ↔ ∀ a : Fin 3, win1_3.index t a * S1x1x1.size a ≤ (i a).val ∧ (i a).val < win1_3.index t a * S1x1x1.size a + S1x1x1.size a := by
  show i ∈ ((View.whole main_v5).slice (win1_3.rect t)).set ↔ _
  rw [View.set_slice_whole, Rect.mem_set_unit]
  exact Iff.rfl

/-- What a point with J = 7 writes back is its block of `result`. -/
theorem flushed_eq (c : Dev nD) (t : Fin cfg1.N) (hf : (cfg1.win 3).flush t = true) :
    (dat1 (F := Ideal) V c).flushed 3 t = ((cfg1.win 3).blk t).view.read (Elt Ideal) (result V c) := by
  have h7 : t.val % 8 = 7 := (flush1_3 t).mp hf
  obtain ⟨-, -, -, -, -, -, e0, -, -⟩ := idx_facts t
  show (cfg1.win 3).cut (grid1.coords t) ((dat1 (F := Ideal) V c).after 3 t) = _
  rw [after1_3]
  funext j
  rw [View.read_apply]
  show outsAt1 (F := Ideal) V c t.val t.isLt j = result V c (((cfg1.win 3).blk t).view.emb j)
  rw [outsAt_eq V c t.val t.isLt j, h7, partialSum_seven]
  unfold result
  refine Finset.sum_congr rfl fun J _ => congrArg (fun I => blockSum (WmOf V c) (ZOf V c) I J) (Fin.ext ?_)
  show t.val / 8 = win1_3.index t (0 : Fin 3) * 1 + 1 * (j 0).val
  have hj : (j 0).val < 1 := (j 0).isLt
  rw [e0]; omega

/-- THE RESULT ARRAY after the region: entry `(I, 0, 0)` holds the sum of the kernel's terms over row tile `I`'s rows
    and all columns, block by block. -/
theorem final (c : Dev nD) : (dat1 (F := Ideal) V c).arrAt 3 cfg1.N = result V c :=
  (dat1 (F := Ideal) V c).arrAt_eq_of_cover 3 (result V c) (flushed_eq V c) fun i => by
    have hi0 : (i 0).val < 8 := (i 0).isLt
    have hi1 : (i 1).val < 1 := (i 1).isLt
    have hi2 : (i 2).val < 1 := (i 2).isLt
    obtain ⟨t, ht⟩ : ∃ t : Fin cfg1.N, t.val = 8 * (i 0).val + 7 := ⟨⟨8 * (i 0).val + 7, by rw [N64]; omega⟩, rfl⟩
    obtain ⟨-, -, -, -, -, -, e0, e1, e2⟩ := idx_facts t
    refine ⟨t, (flush1_3 t).mpr (by omega), ?_⟩
    rw [mem_blk3]
    intro a
    match a with
    | ⟨0, _⟩ => show win1_3.index t (0 : Fin 3) * 1 ≤ (i 0).val ∧ (i 0).val < win1_3.index t (0 : Fin 3) * 1 + 1; rw [e0]; omega
    | ⟨1, _⟩ => show win1_3.index t (1 : Fin 3) * 1 ≤ (i 1).val ∧ (i 1).val < win1_3.index t (1 : Fin 3) * 1 + 1; rw [e1]; omega
    | ⟨2, _⟩ => show win1_3.index t (2 : Fin 3) * 1 ≤ (i 2).val ∧ (i 2).val < win1_3.index t (2 : Fin 3) * 1 + 1; rw [e2]; omega

/-- The result array at entry `(I, 0, 0)`. -/
theorem final_apply (c : Dev nD) (I : Fin 8) :
    (dat1 (F := Ideal) V c).arrAt 3 cfg1.N (ix3 I 0 0)
      = ∑ J : Fin 8, ∑ p : Fin 1024, ∑ q : Fin 1024, kerTermOf (WmOf V c) (ZOf V c) (row I p) (row J q) := by
  rw [final V c]
  rfl

end AtIdeal

end Cert.KernelIdeal.Value1

end
-- ==== Proof.KiValue.lean ====
/-
  The kernel program's result on the extended reals.  At the last boundary the result buffer holds the total of the
  eight per-row-tile partial sums divided by 16384; each partial sum is the sum, over the eight column tiles and the
  1024 × 1024 entries of each, of the kernel's term for that pair of rows, taken at the weight matrix as launched and
  at the scaled embedding the host operations made from the degree vector; regrouped over all pairs (i, j) that is the
  kernel's loss of the two launch arguments.
-/
import proofs.«103079_j4286377361973_2_alg».proof.Proof.KiRun
import proofs.«103079_j4286377361973_2_alg».proof.Proof.KiHost
import proofs.«103079_j4286377361973_2_alg».proof.Proof.KiScaled
import proofs.«103079_j4286377361973_2_alg».proof.Proof.KiValue1
import proofs.«103079_j4286377361973_2_alg».proof.Proof.Spec

set_option maxRecDepth 16384

noncomputable section

namespace Cert.KernelIdeal.Result

open Cert.KernelIdeal Cert.KernelIdeal.Gen Cert.KernelIdeal.Frame Cert.KernelIdeal.Value1
open Idealize.ShloMosaic Idealize.ShloMosaic.TcCoe Idealize.ShloMosaic.ValueIdx Idealize.SL.Sem

variable (m : (ℓ : Loc nD τ sig) → Buf (Elt Ideal) ℓ) (c : Dev nD)

/-- The launch arguments' entries. -/
abbrev Wm : Fin 8192 → Fin 8192 → EReal := fun i j => m ((c : Thread nD τ).loc main_arg0) (ix2 i j)
abbrev Ym : Fin 8192 → Fin 64 → EReal := fun i k => m ((c : Thread nD τ).loc main_arg1) (ix2 i k)

/-- The eight partial sums the second region leaves in the result array. -/
def partials : Fin 8 → EReal := fun I =>
  (W3 (F := Ideal) m c (Proc.devRef .tc main_v5) : (⟨S8x1x1, .f32⟩ : BufTy).Contents (Elt Ideal)) (ix3 I 0 0)

/-- The result at the last boundary: the total of the eight partial sums over 16384. -/
theorem total_eq :
    (W4 (F := Ideal) m c (Proc.devRef .tc main_v7) : (⟨S_, .f32⟩ : BufTy).Contents (Elt Ideal)) ix0
      = Ideal.div (∑ I : Fin 8, partials m c I) ((16384 : ℝ) : EReal) :=
  Cert.KernelIdeal.HostIdx.after_hostOps2_v7_apply (W3 (F := Ideal) m c)

/-- One partial sum: row tile `I` against every column tile. -/
theorem partial_eq (I : Fin 8) :
    partials m c I
      = ∑ J : Fin 8, ∑ p : Fin 1024, ∑ q : Fin 1024, kerTermOf (WmOf (V2 (F := Ideal) m) c) (ZOf (V2 (F := Ideal) m) c) (row I p) (row J q) :=
  (congrFun (W3_v5 (F := Ideal) m c) (ix3 I 0 0)).trans (final_apply (V2 (F := Ideal) m) c I)

/-- One pair's term, at the second region's entry contents, is the kernel's term of the launch arguments. -/
theorem term_eq (i j : Fin 8192) :
    kerTermOf (WmOf (V2 (F := Ideal) m) c) (ZOf (V2 (F := Ideal) m) c) i j = Cert.Spec.kerTerm (Wm m c) (Ym m c) i j := by
  rw [kerTerm_eq]
  have hW : WmOf (V2 (F := Ideal) m) c = Wm m c := by
    funext a b; exact congrFun (Cert.KernelIdeal.Scaled.w_entry m c) (ix2 a b)
  have hZ : ZOf (V2 (F := Ideal) m) c = Cert.Spec.yn (Wm m c) (Ym m c) := by
    funext a k; exact Cert.KernelIdeal.Scaled.scaled_entry m c a k
  rw [hW, hZ]

/-- The sum of the eight partial sums is the double sum of the kernel's terms over all pairs. -/
theorem sum_partials :
    (∑ I : Fin 8, partials m c I) = ∑ i : Fin 8192, ∑ j : Fin 8192, Cert.Spec.kerTerm (Wm m c) (Ym m c) i j := by
  rw [sum_blocks (f := Cert.Spec.kerTerm (Wm m c) (Ym m c))]
  exact Finset.sum_congr rfl fun I _ => (partial_eq m c I).trans
    (Finset.sum_congr rfl fun J _ => Finset.sum_congr rfl fun p _ => Finset.sum_congr rfl fun q _ => term_eq m c (row I p) (row J q))

/-- The result's one entry at the last boundary is the kernel's loss of the launch arguments' entries. -/
theorem result_at :
    (W4 (F := Ideal) m c (Proc.devRef .tc main_v7) : (⟨S_, .f32⟩ : BufTy).Contents (Elt Ideal)) ix0
      = Cert.Spec.kerLoss (Wm m c) (Ym m c) := by
  have h1 := total_eq m c
  rw [sum_partials m c] at h1
  exact h1

/-- The result buffer at the last boundary, as a whole. -/
theorem result_eq :
    (W4 (F := Ideal) m c (Proc.devRef .tc main_v7) : (⟨S_, .f32⟩ : BufTy).Contents (Elt Ideal))
      = fun _ => Cert.Spec.kerLoss (Wm m c) (Ym m c) :=
  funext fun i0 => by rw [eq_ix0 i0]; exact result_at m c

end Cert.KernelIdeal.Result

end
-- ==== Proof.RefLeg.lean ====
/-
  The reference's result as a function of its two input arrays: its run, read one operation at a time,
  is the loss `Cert.Spec.refLoss` of the arrays' entries.

  Write `W i j` for entry `(i, j)` of the first array and `Y i k` for entry `(i, k)` of the second.  Reading the
  operations in order, at an index:
    the row sum of `W` is `deg i`;  its square root, laid along 64 columns, divides `Y`:  `yn i k`;
    the row sum of the squares of `yn` is `sq i`;  laid along the rows and along the columns and added:  `sq i + sq j`;
    the product of `yn` with its own transpose, summed over the 64 columns, is `dot i j`;
    twice that, subtracted, clamped below at zero and multiplied by `W i j`, is `refTerm i j`;
    the sum over every pair, divided by 16384, is `refLoss`.
  Each step is one equation at one index; no array is ever compared whole.
-/
import proofs.«103079_j4286377361973_2_alg».proof.Proof.Gen.ReferenceIdeal.Read
import proofs.«103079_j4286377361973_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-! ## The two literals -/

/-- The real number 2, as an extended real, is the numeral 2 there. -/
theorem coe_two : ((2 : ℝ) : EReal) = (2 : EReal) := by
  first | rfl | norm_cast | (simp; done)

/-- The word `0x40000000` denotes the real number 2. -/
theorem ofBits_two : Ideal.ofBits .f32 0x40000000#32 = (2 : EReal) := by
  rw [← coe_two]
  simp [Ideal.ofBits, Ideal.ieee, -EReal.coe_mul]; norm_num

/-- The word `0x46800000` denotes the real number 16384. -/
theorem ofBits_16384 : Ideal.ofBits .f32 0x46800000#32 = ((16384 : ℝ) : EReal) := by
  simp [Ideal.ofBits, Ideal.ieee, -EReal.coe_mul]; norm_num

/-! ## Indices: the composed index functions of the layout operations are coordinate pairs -/

theorem idx_v0 (i : Fin 8192) (k : Fin 8192) : idx_main_v0 (ValueIdx.ix1 i) k = ValueIdx.ix2 i k :=
  funext fun a => by match a with | ⟨0, _⟩ => rfl | ⟨1, _⟩ => rfl

theorem idx_v3 (i : Fin 8192) (k : Fin 64) : idx_main_v2 (idx_main_v3 (ValueIdx.ix2 i k)) = ValueIdx.ix1 i :=
  funext fun a => by match a with | ⟨0, _⟩ => rfl

theorem idx_v6 (i : Fin 8192) (k : Fin 64) : idx_main_v6 (ValueIdx.ix1 i) k = ValueIdx.ix2 i k :=
  funext fun a => by match a with | ⟨0, _⟩ => rfl | ⟨1, _⟩ => rfl

theorem idx_v9 (i j : Fin 8192) : idx_main_v7 (idx_main_v9 (ValueIdx.ix2 i j)) = ValueIdx.ix1 i :=
  funext fun a => by match a with | ⟨0, _⟩ => rfl

theorem idx_v10 (i j : Fin 8192) : idx_main_v8 (idx_main_v10 (ValueIdx.ix2 i j)) = ValueIdx.ix1 j :=
  funext fun a => by match a with | ⟨0, _⟩ => rfl

theorem lidx_v13 (i j : Fin 8192) (k : Fin 64) : lidx_main_v13 (ValueIdx.ix2 i j) k = ValueIdx.ix2 i k :=
  funext fun a => by match a with | ⟨0, _⟩ => rfl | ⟨1, _⟩ => rfl

theorem ridx_v13 (i j : Fin 8192) (k : Fin 64) :
    idx_main_v12 (ridx_main_v13 (ValueIdx.ix2 i j) k) = ValueIdx.ix2 j k :=
  funext fun a => by match a with | ⟨0, _⟩ => rfl | ⟨1, _⟩ => rfl

/-! ## The stages, one index at a time -/

variable (x : (⟨S8192x8192, .f32⟩ : BufTy).Contents (Elt Ideal)) (y : (⟨S8192x64, .f32⟩ : BufTy).Contents (Elt Ideal))

/-- The row sum of the first array is the degree. -/
theorem deg_eq (i : Fin 8192) :
    val_main_v0 (F := Ideal) x (ValueIdx.ix1 i) = Cert.Spec.deg (fun i j => x (ValueIdx.ix2 i j)) i := by
  rw [val_main_v0_apply, val_main_cst_apply]
  simp only [Ideal.ofBits_def, Ideal.ofBits_zero_f32, zero_add, idx_v0]
  rfl

/-- The second array divided by the root of the degree, laid along its 64 columns, is the scaled entry. -/
theorem yn_eq (i : Fin 8192) (k : Fin 64) :
    val_main_v4 (F := Ideal) x y (ValueIdx.ix2 i k)
      = Cert.Spec.yn (fun i j => x (ValueIdx.ix2 i j)) (fun i k => y (ValueIdx.ix2 i k)) i k := by
  rw [val_main_v4_apply, val_main_v3_apply, val_main_v2_apply, val_main_v1_apply, idx_v3, deg_eq]
  simp only [Ideal.hostDivf_def, Ideal.hostUnary_sqrt_def]
  rfl

/-- The row sum of the squared scaled entries is the squared length. -/
theorem sq_eq (i : Fin 8192) :
    val_main_v6 (F := Ideal) x y (ValueIdx.ix1 i)
      = Cert.Spec.sq (fun i j => x (ValueIdx.ix2 i j)) (fun i k => y (ValueIdx.ix2 i k)) i := by
  rw [val_main_v6_apply, val_main_cst_0_apply]
  simp only [Ideal.ofBits_def, Ideal.ofBits_zero_f32, zero_add, idx_v6, val_main_v5_apply, yn_eq, Ideal.mulf_def]
  rfl

/-- The product of the scaled array with its transpose, at a pair, is the inner product of the two scaled rows. -/
theorem dot_eq (i j : Fin 8192) :
    val_main_v13 (F := Ideal) x y (ValueIdx.ix2 i j)
      = Cert.Spec.dot (fun i j => x (ValueIdx.ix2 i j)) (fun i k => y (ValueIdx.ix2 i k)) i j := by
  rw [val_main_v13_apply]
  simp only [lidx_v13, val_main_v12_apply, ridx_v13, yn_eq]
  rfl

/-- The array summed by the last reduction holds, at a pair, the reference's term for that pair. -/
theorem term_eq (i j : Fin 8192) :
    val_main_v19 (F := Ideal) x y (ValueIdx.ix2 i j)
      = Cert.Spec.refTerm (fun i j => x (ValueIdx.ix2 i j)) (fun i k => y (ValueIdx.ix2 i k)) i j := by
  rw [val_main_v19_apply, val_main_v18_apply, val_main_v16_apply, val_main_v11_apply, val_main_v9_apply, val_main_v7_apply,
    val_main_v10_apply, val_main_v8_apply, val_main_v15_apply, val_main_v14_apply, val_main_cst_1_apply, val_main_v17_apply,
    val_main_cst_2_apply, idx_v9, idx_v10, sq_eq, sq_eq, dot_eq]
  simp only [Ideal.mulf_def, Ideal.maximumf_def, Ideal.subf_def, Ideal.addf_def, Ideal.ofBits_def, Ideal.ofBits_zero_f32,
    ofBits_two]
  rfl

/-! ## The result -/

/-- The reference's result is the loss of its arguments' entries. -/
theorem result_eq :
    val_main_v21 (F := Ideal) x y
      = fun _ => Cert.Spec.refLoss (fun i j => x (ValueIdx.ix2 i j)) (fun i k => y (ValueIdx.ix2 i k)) := by
  funext i
  rw [val_main_v21_apply, val_main_v20_apply, val_main_cst_3_apply, val_main_cst_4_apply, ValueIdx.sum_idx2]
  simp only [Ideal.hostDivf_def, Ideal.ofBits_def, Ideal.ofBits_zero_f32, zero_add, ofBits_16384, term_eq]
  rfl

/-- Every weakly fair execution of the reference ends with its result buffer holding the loss of the two argument
    arrays' launch contents, and the two arguments as they were. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = (fun _ => Cert.Spec.refLoss (fun i j => m ((c.tc : Thread nD τ).loc main_arg0) (ValueIdx.ix2 i j))
              (fun i k => m ((c.tc : Thread nD τ).loc main_arg1) (ValueIdx.ix2 i k)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v21_eq _ _).trans (result_eq _ _)), (h c).2⟩)
    (Cert.ReferenceIdeal.Value.run (F := Ideal) m ρ)

end Cert.ReferenceIdeal.RefValue

end
-- ==== Proof.PreFacts.lean ====
/-
  The precondition decoded into facts about entries.

  The precondition is the conjunction of three statements, each a conjunction over every index of an array:
  every entry of the weight matrix has absolute value below +∞, every entry of the embedding has absolute value
  below +∞, and every row sum of the weight matrix is above zero.  An extended real whose absolute value
  `max a (−a)` is below +∞ is neither infinity, so it is a real number.  The row sum the precondition takes is the
  initial value zero plus the sum over the row's columns, which is the degree of the row as the specification
  writes it.
-/
import proofs.«103079_j4286377361973_2_alg».proof.Pre_finite_inputs
import proofs.«103079_j4286377361973_2_alg».proof.Proof.Spec
import Idealize.ShloMosaic.Lib.ValueIdx
import Idealize.ShloMosaic.Lib.ReduceAll
import Idealize.ShloMosaic.Lib.IdealHost

noncomputable section

namespace Cert.PreFacts

open Idealize.ShloMosaic Idealize.ShloMosaic.ValueIdx
open Cert.Pre_finite_inputs Cert.Pre_finite_inputs.Facts

/-- The scalar shape has one index. -/
instance : Subsingleton S_.Idx := ⟨fun a b => funext fun d => d.elim0⟩

/-- A one-bit word made from a truth value is 1 exactly when the value is true. -/
theorem ofBool_eq_one (b : Bool) : BitVec.ofBool b = 1#1 ↔ b = true := by cases b <;> decide

/-- The ordered comparison "less than" of two extended reals is 1 exactly when the first is below the second. -/
theorem cmp_olt (u v : EReal) : Ideal.cmp .olt u v = 1#1 ↔ u < v := by
  show BitVec.ofBool (decide (u < v)) = 1#1 ↔ u < v
  rw [ofBool_eq_one, decide_eq_true_eq]

/-- The ordered comparison "greater than" of two extended reals is 1 exactly when the second is below the first. -/
theorem cmp_ogt (u v : EReal) : Ideal.cmp .ogt u v = 1#1 ↔ v < u := by
  show BitVec.ofBool (decide (v < u)) = 1#1 ↔ v < u
  rw [ofBool_eq_one, decide_eq_true_eq]

/-- The f32 pattern with an all-ones exponent and a zero fraction is +∞. -/
theorem ofBits_inf_f32 : Ideal.ofBits .f32 0x7F800000#32 = ⊤ := by simp [Ideal.ofBits, Ideal.ieee]

/-- An extended real whose absolute value is below +∞ is a real number. -/
theorem real_of_abs_lt_top (a : EReal) (h : max a (-a) < ⊤) : ∃ r : ℝ, a = (r : EReal) := by
  induction a using EReal.rec
  · simp at h
  · exact ⟨_, rfl⟩
  · simp at h

/-- The comparison the precondition makes at an element, `|a| < +∞`, makes the element a real number. -/
theorem real_of_cmp (a : EReal)
    (h : Ideal.cmp .olt (max a (-a)) (Ideal.ofBits .f32 0x7F800000#32) = 1#1) : ∃ r : ℝ, a = (r : EReal) := by
  rw [ofBits_inf_f32, cmp_olt] at h
  exact real_of_abs_lt_top a h

variable [Cert.Pre_finite_inputs.Facts]

/-- THE PRECONDITION DECODED: every entry of both inputs is a real number and every degree is positive. -/
theorem of_pre (x : FVec Ideal S8192x8192 .f32) (y : FVec Ideal S8192x64 .f32)
    (h : Cert.Pre_finite_inputs.fn (F := Ideal) x y = fun _ => 1#1) :
    (∀ (i : Fin 8192) (j : Fin 8192), ∃ r : ℝ, x (ix2 i j) = (r : EReal))
      ∧ (∀ (i : Fin 8192) (k : Fin 64), ∃ r : ℝ, y (ix2 i k) = (r : EReal))
      ∧ (∀ i : Fin 8192, 0 < Cert.Spec.deg (fun i j => x (ix2 i j)) i) := by
  have e := congrFun h ix0
  dsimp only [Cert.Pre_finite_inputs.fn] at e
  change IntOp.andi (IntOp.andi _ _) _ = 1#1 at e
  obtain ⟨e12, e3⟩ := IntOp.andi_eq_one.1 e
  obtain ⟨e1, e2⟩ := IntOp.andi_eq_one.1 e12
  have a1 := Host.reduce_andi_all _ _ _ _ _ e1
  have a2 := Host.reduce_andi_all _ _ _ _ _ e2
  have a3 := Host.reduce_andi_all _ _ _ _ _ e3
  refine ⟨fun i j => ?_, fun i k => ?_, fun i => ?_⟩
  · exact real_of_cmp (x (ix2 i j)) (a1 (ix2 i j))
  · exact real_of_cmp (y (ix2 i k)) (a2 (ix2 i k))
  · have hR : S8192x8192.Reduces [1] S8192 :=
      ⟨(reducesTo_S8192x8192_S8192_d1).1, Nat.one_pos, (reducesTo_S8192x8192_S8192_d1).2⟩
    have h3 : Ideal.cmp .ogt
        (Ideal.hostReduceAdd reducesTo_S8192x8192_S8192_d1 x (Ideal.ofBits .f32 0x00000000#32) (ix1 i))
        (Ideal.ofBits .f32 0x00000000#32) = 1#1 := a3 (ix1 i)
    rw [cmp_ogt, Ideal.ofBits_zero_f32, Ideal.hostReduceAdd_single _ hR, zero_add] at h3
    show 0 < ∑ j : Fin 8192, x (ix2 i j)
    refine lt_of_lt_of_eq h3 ?_
    show ∑ k : Fin 8192, x (hR.lift (ix1 i) k) = ∑ j : Fin 8192, x (ix2 i j)
    refine Finset.sum_congr rfl fun k _ => congrArg x (funext fun a => Fin.ext ?_)
    match a with
    | ⟨0, _⟩ => rfl
    | ⟨1, _⟩ => rfl

end Cert.PreFacts

end
-- ==== Proof.SpecLaw.lean ====
/-
  The joining law between the two expansions of the loss.

  With real inputs and positive degrees, every degree is a positive real, its square root a positive real, and
  every scaled entry `yn i k` a real number.  Then the squared lengths and the inner products are coercions of
  finite real sums, the inner product with −2 folded into its first operand is −2 times the plain one, so
    (sq i + sq j) + dotNeg2 i j = (sq i + sq j) − 2 · dot i j,
  and the product with the weight commutes.  Hence the two terms agree for every pair and so do the two losses.
-/
import proofs.«103079_j4286377361973_2_alg».proof.Proof.Spec

noncomputable section

namespace Cert.Spec

open Idealize.ShloMosaic

/-- A finite sum of coerced reals is the coercion of the real sum. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

variable (W : Fin 8192 → Fin 8192 → EReal) (Y : Fin 8192 → Fin 64 → EReal)

/-- With real inputs and positive degrees every scaled entry is a real number. -/
theorem yn_real (hW : ∀ i j, ∃ r : ℝ, W i j = (r : EReal)) (hY : ∀ i k, ∃ r : ℝ, Y i k = (r : EReal))
    (hD : ∀ i, 0 < deg W i) :
    ∃ z : Fin 8192 → Fin 64 → ℝ, ∀ i k, yn W Y i k = (z i k : EReal) := by
  choose w hw using hW
  choose y hy using hY
  have hdeg : ∀ i, deg W i = ((∑ j, w i j : ℝ) : EReal) := by
    intro i
    unfold deg
    simp only [hw]
    exact coe_sum _ _
  refine ⟨fun i k => y i k * (1 / Real.sqrt (∑ j, w i j)), fun i k => ?_⟩
  have hpos : 0 < ∑ j, w i j := by
    have h := hD i
    rw [hdeg i] at h
    exact_mod_cast h
  have hs : Real.sqrt (∑ j, w i j) ≠ 0 := (Real.sqrt_pos.mpr hpos).ne'
  unfold yn
  rw [hdeg i, Ideal.sqrt_coe, if_neg (not_lt.mpr hpos.le), Ideal.div_coe hs, hy, ← EReal.coe_mul]

/-- When every scaled entry is real the two expansions of a pair's term agree. -/
theorem kerTerm_eq_refTerm (z : Fin 8192 → Fin 64 → ℝ) (hz : ∀ i k, yn W Y i k = (z i k : EReal))
    (i j : Fin 8192) : kerTerm W Y i j = refTerm W Y i j := by
  have hsq : ∀ a, sq W Y a = ((∑ k, z a k * z a k : ℝ) : EReal) := by
    intro a
    unfold sq
    simp only [hz, ← EReal.coe_mul]
    exact coe_sum _ _
  have hdot : dot W Y i j = ((∑ k, z i k * z j k : ℝ) : EReal) := by
    unfold dot
    simp only [hz, ← EReal.coe_mul]
    exact coe_sum _ _
  have h2 : (2 : EReal) = ((2 : ℝ) : EReal) := by norm_cast
  have hm2 : (-2 : EReal) = ((-2 : ℝ) : EReal) := by rw [EReal.coe_neg, ← h2]
  have hneg : dotNeg2 W Y i j = ((∑ k, (z i k * (-2)) * z j k : ℝ) : EReal) := by
    unfold dotNeg2
    simp only [hz, hm2, ← EReal.coe_mul]
    exact coe_sum _ _
  have hreal : (∑ k, z i k * z i k + ∑ k, z j k * z j k) + ∑ k, (z i k * (-2)) * z j k
      = (∑ k, z i k * z i k + ∑ k, z j k * z j k) - 2 * ∑ k, z i k * z j k := by
    rw [Finset.mul_sum, sub_eq_add_neg, ← Finset.sum_neg_distrib]
    congr 1
    refine Finset.sum_congr rfl fun k _ => ?_
    ring
  unfold kerTerm refTerm
  rw [hsq i, hsq j, hdot, hneg, h2, ← EReal.coe_mul, ← EReal.coe_add, ← EReal.coe_add, ← EReal.coe_sub,
    hreal, mul_comm]

/-- The joining law: with real inputs and positive degrees the two losses are the same number. -/
theorem kerLoss_eq_refLoss (W : Fin 8192 → Fin 8192 → EReal) (Y : Fin 8192 → Fin 64 → EReal)
    (hW : ∀ i j, ∃ r : ℝ, W i j = (r : EReal)) (hY : ∀ i k, ∃ r : ℝ, Y i k = (r : EReal))
    (hD : ∀ i, 0 < deg W i) :
    kerLoss W Y = refLoss W Y := by
  obtain ⟨z, hz⟩ := yn_real W Y hW hY hD
  unfold kerLoss refLoss
  simp only [kerTerm_eq_refTerm W Y z hz]

end Cert.Spec

end
-- ==== Proof.lean ====
/-
  The five claims about the graph-embedding loss kernel and its reference.

  Both programs compute, for a weight matrix W (8192 × 8192) and an embedding Y (8192 × 64),
      ( Σ_{i,j} W i j · max (‖yn i − yn j‖², 0) ) / 16384,     yn i k = Y i k / √(Σ_j W i j),
  the kernel in two pipelined regions (the row sums; then 1024 × 1024 tiles of the weighted clamped distances, summed
  per row tile) around a few host operations, the reference in whole-array operations.  They expand the squared
  distance differently — the reference as (sq i + sq j) − 2·⟨yn i, yn j⟩, the kernel with the factor −2 folded into
  the inner product's first operand — which is one function on the extended reals exactly when every scaled entry is a
  real number.  The precondition says so: the inputs are finite and every row sum of W is positive (where a row sum is
  zero or negative the reference's own division by its square root is undefined).

  The frames: each kernel program runs region by region, every window staged and written back as its index map says,
  the two row windows of the second region sharing the scaled embedding's buffer half and half; the reference is a
  straight line of host operations.  The values: the first region leaves the degree vector, the host operations the
  scaled embedding, the second region one partial sum per row tile, the last host operations their total over 16384;
  regrouping the tiles' sums into the double sum over all pairs is associativity and commutativity alone, and the
  two expansions of the distance agree entry by entry by distributivity over the reals.
-/
import proofs.«103079_j4286377361973_2_alg».proof.Defs
import proofs.«103079_j4286377361973_2_alg».proof.Proof.Gen.Kernel
import proofs.«103079_j4286377361973_2_alg».proof.Proof.Gen.KernelIdeal
import proofs.«103079_j4286377361973_2_alg».proof.Proof.Gen.ReferenceIdeal
import proofs.«103079_j4286377361973_2_alg».proof.Proof.Gen.Pre_finite_inputs
import proofs.«103079_j4286377361973_2_alg».proof.Proof.KbRun
import proofs.«103079_j4286377361973_2_alg».proof.Proof.KiValue
import proofs.«103079_j4286377361973_2_alg».proof.Proof.RefLeg
import proofs.«103079_j4286377361973_2_alg».proof.Proof.PreFacts
import proofs.«103079_j4286377361973_2_alg».proof.Proof.SpecLaw
import Idealize.ShloMosaic.Adequacy
import Idealize.ShloMosaic.Init

noncomputable section

namespace Cert.Proof

open Idealize.ShloMosaic Idealize.ShloMosaic.TcCoe Idealize.SL.Sem

/-- The word-level kernel runs to the end and leaves its two arguments as launched. -/
theorem frame_kernel : Cert.frame_Kernel (hKernel := Cert.Kernel.Gen.facts) (hPre_finite_inputs := Cert.Pre_finite_inputs.Gen.facts) :=
  fun m ρ _ => Cert.Kernel.Frame.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_spec m ρ)

/-- The idealization rewrote nothing. -/
theorem preserves : Cert.preserves_Kernel_KernelIdeal := trivial

/-- From memories agreeing on the arguments both programs end at the reference's loss of those arguments: the
    kernel at its own expansion of it, which under the precondition is the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.refLoss
      (fun i j => m ((c.tc : Thread Cert.KernelIdeal.nD Cert.KernelIdeal.τ).loc Cert.KernelIdeal.main_arg0) (ValueIdx.ix2 i j))
      (fun i k => m ((c.tc : Thread Cert.KernelIdeal.nD Cert.KernelIdeal.τ).loc Cert.KernelIdeal.main_arg1) (ValueIdx.ix2 i k)), ?_, ?_⟩
  · refine (θ_run Cert.KernelIdeal.defs _ _).mono (fun r h c => ⟨?_, ?_, ?_⟩) (Cert.KernelIdeal.Frame.run_all (F := Ideal) m ρ)
    · obtain ⟨hW, hY, hD⟩ := Cert.PreFacts.of_pre _ _ (hpre c)
      rw [h c _ (Cert.KernelIdeal.Frame.mem_uc Cert.KernelIdeal.main_v7 (by decide)), Cert.KernelIdeal.Result.result_eq m c,
        Cert.Spec.kerLoss_eq_refLoss _ _ hW hY hD]
    · exact (h c _ (Cert.KernelIdeal.Frame.mem_uc Cert.KernelIdeal.main_arg0 (by decide))).trans (Cert.KernelIdeal.Frame.W4_main_arg0 m c)
    · exact (h c _ (Cert.KernelIdeal.Frame.mem_uc Cert.KernelIdeal.main_arg1 (by decide))).trans (Cert.KernelIdeal.Frame.W4_main_arg1 m c)
  · refine (θ_run Cert.ReferenceIdeal.defs _ _).mono (fun r h c => ⟨(h c).1.trans ?_, (h c).2⟩) (Cert.ReferenceIdeal.RefValue.run_spec m' ρ')
    rw [(hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
